-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v435) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x768 : Shape := ⟨4, ![8, 3, 512, 768]⟩
abbrev S_ : Shape := ⟨0, ![]⟩

class Facts : Prop where
  bcast_S_S8x3x512x768 : S_.BroadcastsInDim S8x3x512x768 (![] : Fin 0 → Fin S8x3x512x768.rank)
  reducesTo_S8x3x512x768_S_d0_1_2_3 : S8x3x512x768.ReducesTo [0, 1, 2, 3] S_
  h_S_ : 0 < S_.numel

variable [Facts]

def fn {F : FTy → Type} [FloatOps F] (main_arg0 : FVec F S8x3x512x768 .f32) (main_arg1 : FVec F S8x3x512x768 .f32) : IVec S_ 1 :=
  let main_v0 : FVec F S8x3x512x768 .f32 := Host.absf main_arg0
  let main_cst : FVec F S_ .f32 := constant S_ .f32 0x7F800000#32
  let main_v1 : FVec F S8x3x512x768 .f32 := broadcastInDim S8x3x512x768 ![] bcast_S_S8x3x512x768 main_cst
  let main_v2 : IVec S8x3x512x768 1 := cmpf .olt main_v0 main_v1
  let main_c : IVec S_ 1 := constantI S_ 1 1#1
  let main_v3 : IVec S_ 1 := (fun x v => Host.reduce IntOp.andi x v reducesTo_S8x3x512x768_S_d0_1_2_3 h_S_) main_v2 main_c
  let main_v4 : FVec F S8x3x512x768 .f32 := Host.absf main_arg1
  let main_cst_0 : FVec F S_ .f32 := constant S_ .f32 0x7F800000#32
  let main_v5 : FVec F S8x3x512x768 .f32 := broadcastInDim S8x3x512x768 ![] bcast_S_S8x3x512x768 main_cst_0
  let main_v6 : IVec S8x3x512x768 1 := cmpf .olt main_v4 main_v5
  let main_c_1 : IVec S_ 1 := constantI S_ 1 1#1
  let main_v7 : IVec S_ 1 := (fun x v => Host.reduce IntOp.andi x v reducesTo_S8x3x512x768_S_d0_1_2_3 h_S_) main_v6 main_c_1
  let main_v8 : IVec S_ 1 := andi main_v3 main_v7
  main_v8
-- ==== Kernel.lean ====
abbrev S8x3x512x768 : Shape := ⟨4, ![8, 3, 512, 768]⟩
abbrev S_ : Shape := ⟨0, ![]⟩
abbrev S8x3x522x778 : Shape := ⟨4, ![8, 3, 522, 778]⟩
abbrev S1x1x522x778 : Shape := ⟨4, ![1, 1, 522, 778]⟩
abbrev S1x1x512x768 : Shape := ⟨4, ![1, 1, 512, 768]⟩
abbrev S1x1x74x778 : Shape := ⟨4, ![1, 1, 74, 778]⟩
abbrev S74x778 : Shape := ⟨2, ![74, 778]⟩
abbrev S1x1x64x768 : Shape := ⟨4, ![1, 1, 64, 768]⟩
abbrev S64x768 : Shape := ⟨2, ![64, 768]⟩

abbrev nBuf : Space → Nat
  | .hbm => 6
  | .vmem => 8
  | .smem => 0
  | _ => 0

abbrev bufTy : (tb : Table) → Fin (tcTables nBuf tb) → BufTy
  | .hbm, ⟨0, _⟩ => ⟨S8x3x512x768, .f32⟩
  | .hbm, ⟨1, _⟩ => ⟨S8x3x512x768, .f32⟩
  | .hbm, ⟨2, _⟩ => ⟨S_, .i32⟩
  | .hbm, ⟨3, _⟩ => ⟨S_, .f32⟩
  | .hbm, ⟨4, _⟩ => ⟨S8x3x522x778, .f32⟩
  | .hbm, ⟨5, _⟩ => ⟨S8x3x512x768, .f32⟩
  | .local _ .vmem, ⟨0, _⟩ => ⟨S1x1x522x778, .f32⟩
  | .local _ .vmem, ⟨1, _⟩ => ⟨S1x1x522x778, .f32⟩
  | .local _ .vmem, ⟨2, _⟩ => ⟨S1x1x512x768, .f32⟩
  | .local _ .vmem, ⟨3, _⟩ => ⟨S1x1x512x768, .f32⟩
  | .local _ .vmem, ⟨4, _⟩ => ⟨S1x1x512x768, .f32⟩
  | .local _ .vmem, ⟨5, _⟩ => ⟨S1x1x512x768, .f32⟩
  | .local _ .vmem, ⟨6, _⟩ => ⟨S1x1x512x768, .f32⟩
  | .local _ .vmem, ⟨7, _⟩ => ⟨S1x1x512x768, .f32⟩
  | _, _ => ⟨S8x3x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v1 : BitVec 32 := Scalar.muli arg6 c64_i32
  v1
def k0_off1 (k0_t1 : Fin k0_t1_loop.trips) : Fin 4 → Nat :=
  let c0 : Index := 0#32
  let c0_1 : Index := 0#32
  let c0_i32 : BitVec 32 := 0#32
  let c1_i32 : BitVec 32 := 1#32
  let arg6 : BitVec 32 := Scf.iv c0_i32 c1_i32 k0_t1
  let c64_i32 : BitVec 32 := 64#32
  let v1 : BitVec 32 := Scalar.muli arg6 c64_i32
  let v2 : BitVec 32 := v1
  let v3 : Index := Scalar.indexCast v2
  let c0_2 : Index := 0#32
  ![0, 0, v3.toNat, 0]
def k0_off2 (k0_t1 : Fin k0_t1_loop.trips) : Fin 4 → Nat :=
  let c0_3 : Index := 0#32
  let c0_4 : Index := 0#32
  let c0_i32 : BitVec 32 := 0#32
  let c1_i32 : BitVec 32 := 1#32
  let arg6 : BitVec 32 := Scf.iv c0_i32 c1_i32 k0_t1
  let c64_i32 : BitVec 32 := 64#32
  let v1 : BitVec 32 := Scalar.muli arg6 c64_i32
  let v2 : BitVec 32 := v1
  let v6 : Index := Scalar.indexCast v2
  let c0_5 : Index := 0#32
  ![0, 0, v6.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x522x778 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x3x512x768_S8x3x522x778_000_000_550_550 : S8x3x512x768.Pads (![0, 0, 5, 5] : Fin 4 → Nat) ![0, 0, 5, 5] ![0, 0, 0, 0] S8x3x522x778
  h_S_ : 0 < S_.numel
  h_S1x1x74x778 : 0 < S1x1x74x778.numel
  shapeCasts_S1x1x74x778_S74x778 : S1x1x74x778.ShapeCasts S74x778
  h_S1x1x64x768 : 0 < S1x1x64x768.numel
  shapeCasts_S1x1x64x768_S64x768 : S1x1x64x768.ShapeCasts S64x768
  slices_S74x778_o10_10_S64x768 : S74x778.Slices ![10, 10] S64x768
  slices_S74x778_o10_8_S64x768 : S74x778.Slices ![10, 8] S64x768
  slices_S74x778_o10_6_S64x768 : S74x778.Slices ![10, 6] S64x768
  slices_S74x778_o10_4_S64x768 : S74x778.Slices ![10, 4] S64x768
  slices_S74x778_o10_2_S64x768 : S74x778.Slices ![10, 2] S64x768
  slices_S74x778_o10_0_S64x768 : S74x778.Slices ![10, 0] S64x768
  slices_S74x778_o8_10_S64x768 : S74x778.Slices ![8, 10] S64x768
  slices_S74x778_o8_8_S64x768 : S74x778.Slices ![8, 8] S64x768
  slices_S74x778_o8_6_S64x768 : S74x778.Slices ![8, 6] S64x768
  slices_S74x778_o8_4_S64x768 : S74x778.Slices ![8, 4] S64x768
  slices_S74x778_o8_2_S64x768 : S74x778.Slices ![8, 2] S64x768
  slices_S74x778_o8_0_S64x768 : S74x778.Slices ![8, 0] S64x768
  slices_S74x778_o6_10_S64x768 : S74x778.Slices ![6, 10] S64x768
  slices_S74x778_o6_8_S64x768 : S74x778.Slices ![6, 8] S64x768
  slices_S74x778_o6_6_S64x768 : S74x778.Slices ![6, 6] S64x768
  slices_S74x778_o6_4_S64x768 : S74x778.Slices ![6, 4] S64x768
  slices_S74x778_o6_2_S64x768 : S74x778.Slices ![6, 2] S64x768
  slices_S74x778_o6_0_S64x768 : S74x778.Slices ![6, 0] S64x768
  slices_S74x778_o4_10_S64x768 : S74x778.Slices ![4, 10] S64x768
  slices_S74x778_o4_8_S64x768 : S74x778.Slices ![4, 8] S64x768
  slices_S74x778_o4_6_S64x768 : S74x778.Slices ![4, 6] S64x768
  slices_S74x778_o4_4_S64x768 : S74x778.Slices ![4, 4] S64x768
  slices_S74x778_o4_2_S64x768 : S74x778.Slices ![4, 2] S64x768
  slices_S74x778_o4_0_S64x768 : S74x778.Slices ![4, 0] S64x768
  slices_S74x778_o2_10_S64x768 : S74x778.Slices ![2, 10] S64x768
  slices_S74x778_o2_8_S64x768 : S74x778.Slices ![2, 8] S64x768
  slices_S74x778_o2_6_S64x768 : S74x778.Slices ![2, 6] S64x768
  slices_S74x778_o2_4_S64x768 : S74x778.Slices ![2, 4] S64x768
  slices_S74x778_o2_2_S64x768 : S74x778.Slices ![2, 2] S64x768
  slices_S74x778_o2_0_S64x768 : S74x778.Slices ![2, 0] S64x768
  slices_S74x778_o0_10_S64x768 : S74x778.Slices ![0, 10] S64x768
  slices_S74x778_o0_8_S64x768 : S74x778.Slices ![0, 8] S64x768
  slices_S74x778_o0_6_S64x768 : S74x778.Slices ![0, 6] S64x768
  slices_S74x778_o0_4_S64x768 : S74x778.Slices ![0, 4] S64x768
  slices_S74x778_o0_2_S64x768 : S74x778.Slices ![0, 2] S64x768
  slices_S74x778_o0_0_S64x768 : S74x778.Slices ![0, 0] S64x768
  shapeCasts_S64x768_S1x1x64x768 : S64x768.ShapeCasts S1x1x64x768
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x1x74x778.size a ≤ S1x1x522x778.size a
  k0_off2_inb : ∀ k0_t1 : Fin k0_t1_loop.trips, ∀ a, (k0_off2 k0_t1) a + S1x1x64x768.size a ≤ S1x1x512x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x522x778.size a ≤ S8x3x522x778.size a
  hwx0_0 : ∀ i : grid0.Coords, EltTy.bits .f32 = 32 ∨ (Rect.block (s := S8x3x522x778) S1x1x522x778.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x768.size a ≤ S8x3x512x768.size a
  hwx0_1 : ∀ i : grid0.Coords, EltTy.bits .f32 = 32 ∨ (Rect.block (s := S8x3x512x768) S1x1x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x768.size a ≤ S8x3x512x768.size a
  hwx0_2 : ∀ i : grid0.Coords, EltTy.bits .f32 = 32 ∨ (Rect.block (s := S8x3x512x768) S1x1x512x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x768.size a ≤ S8x3x512x768.size a
  hwx0_3 : ∀ i : grid0.Coords, EltTy.bits .f32 = 32 ∨ (Rect.block (s := S8x3x512x768) S1x1x512x768.size (cc0_transform_3 i) (hinb0_3 i)).WholeWords (EltTy.packing .f32)

variable [Facts₀]

abbrev win0_0 : Pipeline.Window sig grid0 :=
  Pipeline.Window.ofSpec (Memref.whole main_v0) S1x1x522x778.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x3x512x768 : Shape := ⟨4, ![8, 3, 512, 768]⟩
abbrev S_ : Shape := ⟨0, ![]⟩
abbrev S8x3x522x778 : Shape := ⟨4, ![8, 3, 522, 778]⟩

abbrev nBuf : Space → Nat
  | .hbm => 622
  | .vmem => 0
  | .smem => 0
  | _ => 0

abbrev hbmTy0_0 (i : Nat) : BufTy := match i % 128 with
  | 0 => ⟨S8x3x512x768, .f32⟩
  | 1 => ⟨S8x3x512x768, .f32⟩
  | 2 => ⟨S_, .i32⟩
  | 3 => ⟨S_, .f32⟩
  | 4 => ⟨S8x3x522x778, .f32⟩
  | 5 => ⟨S_, .f32⟩
  | 6 => ⟨S8x3x512x768, .f32⟩
  | 7 => ⟨S_, .f32⟩
  | 8 => ⟨S8x3x512x768, .f32⟩
  | 9 => ⟨S_, .i32⟩
  | 10 => ⟨S_, .i32⟩
  | 11 => ⟨S_, .i32⟩
  | 12 => ⟨S_, .i32⟩
  | 13 => ⟨S8x3x512x768, .f32⟩
  | 14 => ⟨S8x3x512x768, .f32⟩
  | 15 => ⟨S8x3x512x768, .f32⟩
  | 16 => ⟨S8x3x512x768, .f32⟩
  | 17 => ⟨S_, .f32⟩
  | 18 => ⟨S8x3x512x768, .f32⟩
  | 19 => ⟨S8x3x512x768, .f32⟩
  | 20 => ⟨S8x3x512x768, .f32⟩
  | 21 => ⟨S8x3x512x768, .f32⟩
  | 22 => ⟨S8x3x512x768, .f32⟩
  | 23 => ⟨S8x3x512x768, .f32⟩
  | 24 => ⟨S8x3x512x768, .f32⟩
  | 25 => ⟨S8x3x512x768, .f32⟩
  | 26 => ⟨S_, .i32⟩
  | 27 => ⟨S_, .i32⟩
  | 28 => ⟨S_, .i32⟩
  | 29 => ⟨S_, .i32⟩
  | 30 => ⟨S8x3x512x768, .f32⟩
  | 31 => ⟨S8x3x512x768, .f32⟩
  | 32 => ⟨S8x3x512x768, .f32⟩
  | 33 => ⟨S8x3x512x768, .f32⟩
  | 34 => ⟨S_, .f32⟩
  | 35 => ⟨S8x3x512x768, .f32⟩
  | 36 => ⟨S8x3x512x768, .f32⟩
  | 37 => ⟨S8x3x512x768, .f32⟩
  | 38 => ⟨S8x3x512x768, .f32⟩
  | 39 => ⟨S8x3x512x768, .f32⟩
  | 40 => ⟨S8x3x512x768, .f32⟩
  | 41 => ⟨S8x3x512x768, .f32⟩
  | 42 => ⟨S8x3x512x768, .f32⟩
  | 43 => ⟨S_, .i32⟩
  | 44 => ⟨S_, .i32⟩
  | 45 => ⟨S_, .i32⟩
  | 46 => ⟨S_, .i32⟩
  | 47 => ⟨S8x3x512x768, .f32⟩
  | 48 => ⟨S8x3x512x768, .f32⟩
  | 49 => ⟨S8x3x512x768, .f32⟩
  | 50 => ⟨S8x3x512x768, .f32⟩
  | 51 => ⟨S_, .f32⟩
  | 52 => ⟨S8x3x512x768, .f32⟩
  | 53 => ⟨S8x3x512x768, .f32⟩
  | 54 => ⟨S8x3x512x768, .f32⟩
  | 55 => ⟨S8x3x512x768, .f32⟩
  | 56 => ⟨S8x3x512x768, .f32⟩
  | 57 => ⟨S8x3x512x768, .f32⟩
  | 58 => ⟨S8x3x512x768, .f32⟩
  | 59 => ⟨S8x3x512x768, .f32⟩
  | 60 => ⟨S_, .i32⟩
  | 61 => ⟨S_, .i32⟩
  | 62 => ⟨S_, .i32⟩
  | 63 => ⟨S_, .i32⟩
  | 64 => ⟨S8x3x512x768, .f32⟩
  | 65 => ⟨S8x3x512x768, .f32⟩
  | 66 => ⟨S8x3x512x768, .f32⟩
  | 67 => ⟨S8x3x512x768, .f32⟩
  | 68 => ⟨S_, .f32⟩
  | 69 => ⟨S8x3x512x768, .f32⟩
  | 70 => ⟨S8x3x512x768, .f32⟩
  | 71 => ⟨S8x3x512x768, .f32⟩
  | 72 => ⟨S8x3x512x768, .f32⟩
  | 73 => ⟨S8x3x512x768, .f32⟩
  | 74 => ⟨S8x3x512x768, .f32⟩
  | 75 => ⟨S8x3x512x768, .f32⟩
  | 76 => ⟨S8x3x512x768, .f32⟩
  | 77 => ⟨S_, .i32⟩
  | 78 => ⟨S_, .i32⟩
  | 79 => ⟨S_, .i32⟩
  | 80 => ⟨S_, .i32⟩
  | 81 => ⟨S8x3x512x768, .f32⟩
  | 82 => ⟨S8x3x512x768, .f32⟩
  | 83 => ⟨S8x3x512x768, .f32⟩
  | 84 => ⟨S8x3x512x768, .f32⟩
  | 85 => ⟨S_, .f32⟩
  | 86 => ⟨S8x3x512x768, .f32⟩
  | 87 => ⟨S8x3x512x768, .f32⟩
  | 88 => ⟨S8x3x512x768, .f32⟩
  | 89 => ⟨S8x3x512x768, .f32⟩
  | 90 => ⟨S8x3x512x768, .f32⟩
  | 91 => ⟨S8x3x512x768, .f32⟩
  | 92 => ⟨S8x3x512x768, .f32⟩
  | 93 => ⟨S8x3x512x768, .f32⟩
  | 94 => ⟨S_, .i32⟩
  | 95 => ⟨S_, .i32⟩
  | 96 => ⟨S_, .i32⟩
  | 97 => ⟨S_, .i32⟩
  | 98 => ⟨S8x3x512x768, .f32⟩
  | 99 => ⟨S8x3x512x768, .f32⟩
  | 100 => ⟨S8x3x512x768, .f32⟩
  | 101 => ⟨S8x3x512x768, .f32⟩
  | 102 => ⟨S_, .f32⟩
  | 103 => ⟨S8x3x512x768, .f32⟩
  | 104 => ⟨S8x3x512x768, .f32⟩
  | 105 => ⟨S8x3x512x768, .f32⟩
  | 106 => ⟨S8x3x512x768, .f32⟩
  | 107 => ⟨S8x3x512x768, .f32⟩
  | 108 => ⟨S8x3x512x768, .f32⟩
  | 109 => ⟨S8x3x512x768, .f32⟩
  | 110 => ⟨S8x3x512x768, .f32⟩
  | 111 => ⟨S_, .i32⟩
  | 112 => ⟨S_, .i32⟩
  | 113 => ⟨S_, .i32⟩
  | 114 => ⟨S_, .i32⟩
  | 115 => ⟨S8x3x512x768, .f32⟩
  | 116 => ⟨S8x3x512x768, .f32⟩
  | 117 => ⟨S8x3x512x768, .f32⟩
  | 118 => ⟨S8x3x512x768, .f32⟩
  | 119 => ⟨S_, .f32⟩
  | 120 => ⟨S8x3x512x768, .f32⟩
  | 121 => ⟨S8x3x512x768, .f32⟩
  | 122 => ⟨S8x3x512x768, .f32⟩
  | 123 => ⟨S8x3x512x768, .f32⟩
  | 124 => ⟨S8x3x512x768, .f32⟩
  | 125 => ⟨S8x3x512x768, .f32⟩
  | 126 => ⟨S8x3x512x768, .f32⟩
  | 127 => ⟨S8x3x512x768, .f32⟩
  | _ => ⟨S8x3x512x768, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S8x3x512x768, .f32⟩
  | 5 => ⟨S8x3x512x768, .f32⟩
  | 6 => ⟨S8x3x512x768, .f32⟩
  | 7 => ⟨S8x3x512x768, .f32⟩
  | 8 => ⟨S_, .f32⟩
  | 9 => ⟨S8x3x512x768, .f32⟩
  | 10 => ⟨S8x3x512x768, .f32⟩
  | 11 => ⟨S8x3x512x768, .f32⟩
  | 12 => ⟨S8x3x512x768, .f32⟩
  | 13 => ⟨S8x3x512x768, .f32⟩
  | 14 => ⟨S8x3x512x768, .f32⟩
  | 15 => ⟨S8x3x512x768, .f32⟩
  | 16 => ⟨S8x3x512x768, .f32⟩
  | 17 => ⟨S_, .i32⟩
  | 18 => ⟨S_, .i32⟩
  | 19 => ⟨S_, .i32⟩
  | 20 => ⟨S_, .i32⟩
  | 21 => ⟨S8x3x512x768, .f32⟩
  | 22 => ⟨S8x3x512x768, .f32⟩
  | 23 => ⟨S8x3x512x768, .f32⟩
  | 24 => ⟨S8x3x512x768, .f32⟩
  | 25 => ⟨S_, .f32⟩
  | 26 => ⟨S8x3x512x768, .f32⟩
  | 27 => ⟨S8x3x512x768, .f32⟩
  | 28 => ⟨S8x3x512x768, .f32⟩
  | 29 => ⟨S8x3x512x768, .f32⟩
  | 30 => ⟨S8x3x512x768, .f32⟩
  | 31 => ⟨S8x3x512x768, .f32⟩
  | 32 => ⟨S8x3x512x768, .f32⟩
  | 33 => ⟨S8x3x512x768, .f32⟩
  | 34 => ⟨S_, .i32⟩
  | 35 => ⟨S_, .i32⟩
  | 36 => ⟨S_, .i32⟩
  | 37 => ⟨S_, .i32⟩
  | 38 => ⟨S8x3x512x768, .f32⟩
  | 39 => ⟨S8x3x512x768, .f32⟩
  | 40 => ⟨S8x3x512x768, .f32⟩
  | 41 => ⟨S8x3x512x768, .f32⟩
  | 42 => ⟨S_, .f32⟩
  | 43 => ⟨S8x3x512x768, .f32⟩
  | 44 => ⟨S8x3x512x768, .f32⟩
  | 45 => ⟨S8x3x512x768, .f32⟩
  | 46 => ⟨S8x3x512x768, .f32⟩
  | 47 => ⟨S8x3x512x768, .f32⟩
  | 48 => ⟨S8x3x512x768, .f32⟩
  | 49 => ⟨S8x3x512x768, .f32⟩
  | 50 => ⟨S8x3x512x768, .f32⟩
  | 51 => ⟨S_, .i32⟩
  | 52 => ⟨S_, .i32⟩
  | 53 => ⟨S_, .i32⟩
  | 54 => ⟨S_, .i32⟩
  | 55 => ⟨S8x3x512x768, .f32⟩
  | 56 => ⟨S8x3x512x768, .f32⟩
  | 57 => ⟨S8x3x512x768, .f32⟩
  | 58 => ⟨S8x3x512x768, .f32⟩
  | 59 => ⟨S_, .f32⟩
  | 60 => ⟨S8x3x512x768, .f32⟩
  | 61 => ⟨S8x3x512x768, .f32⟩
  | 62 => ⟨S8x3x512x768, .f32⟩
  | 63 => ⟨S8x3x512x768, .f32⟩
  | 64 => ⟨S8x3x512x768, .f32⟩
  | 65 => ⟨S8x3x512x768, .f32⟩
  | 66 => ⟨S8x3x512x768, .f32⟩
  | 67 => ⟨S8x3x512x768, .f32⟩
  | 68 => ⟨S_, .i32⟩
  | 69 => ⟨S_, .i32⟩
  | 70 => ⟨S_, .i32⟩
  | 71 => ⟨S_, .i32⟩
  | 72 => ⟨S8x3x512x768, .f32⟩
  | 73 => ⟨S8x3x512x768, .f32⟩
  | 74 => ⟨S8x3x512x768, .f32⟩
  | 75 => ⟨S8x3x512x768, .f32⟩
  | 76 => ⟨S_, .f32⟩
  | 77 => ⟨S8x3x512x768, .f32⟩
  | 78 => ⟨S8x3x512x768, .f32⟩
  | 79 => ⟨S8x3x512x768, .f32⟩
  | 80 => ⟨S8x3x512x768, .f32⟩
  | 81 => ⟨S8x3x512x768, .f32⟩
  | 82 => ⟨S8x3x512x768, .f32⟩
  | 83 => ⟨S8x3x512x768, .f32⟩
  | 84 => ⟨S8x3x512x768, .f32⟩
  | 85 => ⟨S_, .i32⟩
  | 86 => ⟨S_, .i32⟩
  | 87 => ⟨S_, .i32⟩
  | 88 => ⟨S_, .i32⟩
  | 89 => ⟨S8x3x512x768, .f32⟩
  | 90 => ⟨S8x3x512x768, .f32⟩
  | 91 => ⟨S8x3x512x768, .f32⟩
  | 92 => ⟨S8x3x512x768, .f32⟩
  | 93 => ⟨S_, .f32⟩
  | 94 => ⟨S8x3x512x768, .f32⟩
  | 95 => ⟨S8x3x512x768, .f32⟩
  | 96 => ⟨S8x3x512x768, .f32⟩
  | 97 => ⟨S8x3x512x768, .f32⟩
  | 98 => ⟨S8x3x512x768, .f32⟩
  | 99 => ⟨S8x3x512x768, .f32⟩
  | 100 => ⟨S8x3x512x768, .f32⟩
  | 101 => ⟨S8x3x512x768, .f32⟩
  | 102 => ⟨S_, .i32⟩
  | 103 => ⟨S_, .i32⟩
  | 104 => ⟨S_, .i32⟩
  | 105 => ⟨S_, .i32⟩
  | 106 => ⟨S8x3x512x768, .f32⟩
  | 107 => ⟨S8x3x512x768, .f32⟩
  | 108 => ⟨S8x3x512x768, .f32⟩
  | 109 => ⟨S8x3x512x768, .f32⟩
  | 110 => ⟨S_, .f32⟩
  | 111 => ⟨S8x3x512x768, .f32⟩
  | 112 => ⟨S8x3x512x768, .f32⟩
  | 113 => ⟨S8x3x512x768, .f32⟩
  | 114 => ⟨S8x3x512x768, .f32⟩
  | 115 => ⟨S8x3x512x768, .f32⟩
  | 116 => ⟨S8x3x512x768, .f32⟩
  | 117 => ⟨S8x3x512x768, .f32⟩
  | 118 => ⟨S8x3x512x768, .f32⟩
  | 119 => ⟨S_, .i32⟩
  | 120 => ⟨S_, .i32⟩
  | 121 => ⟨S_, .i32⟩
  | 122 => ⟨S_, .i32⟩
  | 123 => ⟨S8x3x512x768, .f32⟩
  | 124 => ⟨S8x3x512x768, .f32⟩
  | 125 => ⟨S8x3x512x768, .f32⟩
  | 126 => ⟨S8x3x512x768, .f32⟩
  | 127 => ⟨S_, .f32⟩
  | _ => ⟨S8x3x512x768, .f32⟩

abbrev hbmTy0_2 (i : Nat) : BufTy := match i % 128 with
  | 0 => ⟨S8x3x512x768, .f32⟩
  | 1 => ⟨S8x3x512x768, .f32⟩
  | 2 => ⟨S8x3x512x768, .f32⟩
  | 3 => ⟨S8x3x512x768, .f32⟩
  | 4 => ⟨S8x3x512x768, .f32⟩
  | 5 => ⟨S8x3x512x768, .f32⟩
  | 6 => ⟨S8x3x512x768, .f32⟩
  | 7 => ⟨S8x3x512x768, .f32⟩
  | 8 => ⟨S_, .i32⟩
  | 9 => ⟨S_, .i32⟩
  | 10 => ⟨S_, .i32⟩
  | 11 => ⟨S_, .i32⟩
  | 12 => ⟨S8x3x512x768, .f32⟩
  | 13 => ⟨S8x3x512x768, .f32⟩
  | 14 => ⟨S8x3x512x768, .f32⟩
  | 15 => ⟨S8x3x512x768, .f32⟩
  | 16 => ⟨S_, .f32⟩
  | 17 => ⟨S8x3x512x768, .f32⟩
  | 18 => ⟨S8x3x512x768, .f32⟩
  | 19 => ⟨S8x3x512x768, .f32⟩
  | 20 => ⟨S8x3x512x768, .f32⟩
  | 21 => ⟨S8x3x512x768, .f32⟩
  | 22 => ⟨S8x3x512x768, .f32⟩
  | 23 => ⟨S8x3x512x768, .f32⟩
  | 24 => ⟨S8x3x512x768, .f32⟩
  | 25 => ⟨S_, .i32⟩
  | 26 => ⟨S_, .i32⟩
  | 27 => ⟨S_, .i32⟩
  | 28 => ⟨S_, .i32⟩
  | 29 => ⟨S8x3x512x768, .f32⟩
  | 30 => ⟨S8x3x512x768, .f32⟩
  | 31 => ⟨S8x3x512x768, .f32⟩
  | 32 => ⟨S8x3x512x768, .f32⟩
  | 33 => ⟨S_, .f32⟩
  | 34 => ⟨S8x3x512x768, .f32⟩
  | 35 => ⟨S8x3x512x768, .f32⟩
  | 36 => ⟨S8x3x512x768, .f32⟩
  | 37 => ⟨S8x3x512x768, .f32⟩
  | 38 => ⟨S8x3x512x768, .f32⟩
  | 39 => ⟨S8x3x512x768, .f32⟩
  | 40 => ⟨S8x3x512x768, .f32⟩
  | 41 => ⟨S8x3x512x768, .f32⟩
  | 42 => ⟨S_, .i32⟩
  | 43 => ⟨S_, .i32⟩
  | 44 => ⟨S_, .i32⟩
  | 45 => ⟨S_, .i32⟩
  | 46 => ⟨S8x3x512x768, .f32⟩
  | 47 => ⟨S8x3x512x768, .f32⟩
  | 48 => ⟨S8x3x512x768, .f32⟩
  | 49 => ⟨S8x3x512x768, .f32⟩
  | 50 => ⟨S_, .f32⟩
  | 51 => ⟨S8x3x512x768, .f32⟩
  | 52 => ⟨S8x3x512x768, .f32⟩
  | 53 => ⟨S8x3x512x768, .f32⟩
  | 54 => ⟨S8x3x512x768, .f32⟩
  | 55 => ⟨S8x3x512x768, .f32⟩
  | 56 => ⟨S8x3x512x768, .f32⟩
  | 57 => ⟨S8x3x512x768, .f32⟩
  | 58 => ⟨S8x3x512x768, .f32⟩
  | 59 => ⟨S_, .i32⟩
  | 60 => ⟨S_, .i32⟩
  | 61 => ⟨S_, .i32⟩
  | 62 => ⟨S_, .i32⟩
  | 63 => ⟨S8x3x512x768, .f32⟩
  | 64 => ⟨S8x3x512x768, .f32⟩
  | 65 => ⟨S8x3x512x768, .f32⟩
  | 66 => ⟨S8x3x512x768, .f32⟩
  | 67 => ⟨S_, .f32⟩
  | 68 => ⟨S8x3x512x768, .f32⟩
  | 69 => ⟨S8x3x512x768, .f32⟩
  | 70 => ⟨S8x3x512x768, .f32⟩
  | 71 => ⟨S8x3x512x768, .f32⟩
  | 72 => ⟨S8x3x512x768, .f32⟩
  | 73 => ⟨S8x3x512x768, .f32⟩
  | 74 => ⟨S8x3x512x768, .f32⟩
  | 75 => ⟨S8x3x512x768, .f32⟩
  | 76 => ⟨S_, .i32⟩
  | 77 => ⟨S_, .i32⟩
  | 78 => ⟨S_, .i32⟩
  | 79 => ⟨S_, .i32⟩
  | 80 => ⟨S8x3x512x768, .f32⟩
  | 81 => ⟨S8x3x512x768, .f32⟩
  | 82 => ⟨S8x3x512x768, .f32⟩
  | 83 => ⟨S8x3x512x768, .f32⟩
  | 84 => ⟨S_, .f32⟩
  | 85 => ⟨S8x3x512x768, .f32⟩
  | 86 => ⟨S8x3x512x768, .f32⟩
  | 87 => ⟨S8x3x512x768, .f32⟩
  | 88 => ⟨S8x3x512x768, .f32⟩
  | 89 => ⟨S8x3x512x768, .f32⟩
  | 90 => ⟨S8x3x512x768, .f32⟩
  | 91 => ⟨S8x3x512x768, .f32⟩
  | 92 => ⟨S8x3x512x768, .f32⟩
  | 93 => ⟨S_, .i32⟩
  | 94 => ⟨S_, .i32⟩
  | 95 => ⟨S_, .i32⟩
  | 96 => ⟨S_, .i32⟩
  | 97 => ⟨S8x3x512x768, .f32⟩
  | 98 => ⟨S8x3x512x768, .f32⟩
  | 99 => ⟨S8x3x512x768, .f32⟩
  | 100 => ⟨S8x3x512x768, .f32⟩
  | 101 => ⟨S_, .f32⟩
  | 102 => ⟨S8x3x512x768, .f32⟩
  | 103 => ⟨S8x3x512x768, .f32⟩
  | 104 => ⟨S8x3x512x768, .f32⟩
  | 105 => ⟨S8x3x512x768, .f32⟩
  | 106 => ⟨S8x3x512x768, .f32⟩
  | 107 => ⟨S8x3x512x768, .f32⟩
  | 108 => ⟨S8x3x512x768, .f32⟩
  | 109 => ⟨S8x3x512x768, .f32⟩
  | 110 => ⟨S_, .i32⟩
  | 111 => ⟨S_, .i32⟩
  | 112 => ⟨S_, .i32⟩
  | 113 => ⟨S_, .i32⟩
  | 114 => ⟨S8x3x512x768, .f32⟩
  | 115 => ⟨S8x3x512x768, .f32⟩
  | 116 => ⟨S8x3x512x768, .f32⟩
  | 117 => ⟨S8x3x512x768, .f32⟩
  | 118 => ⟨S_, .f32⟩
  | 119 => ⟨S8x3x512x768, .f32⟩
  | 120 => ⟨S8x3x512x768, .f32⟩
  | 121 => ⟨S8x3x512x768, .f32⟩
  | 122 => ⟨S8x3x512x768, .f32⟩
  | 123 => ⟨S8x3x512x768, .f32⟩
  | 124 => ⟨S8x3x512x768, .f32⟩
  | 125 => ⟨S8x3x512x768, .f32⟩
  | 126 => ⟨S8x3x512x768, .f32⟩
  | 127 => ⟨S_, .i32⟩
  | _ => ⟨S8x3x512x768, .f32⟩

abbrev hbmTy0_3 (i : Nat) : BufTy := match i % 128 with
  | 0 => ⟨S_, .i32⟩
  | 1 => ⟨S_, .i32⟩
  | 2 => ⟨S_, .i32⟩
  | 3 => ⟨S8x3x512x768, .f32⟩
  | 4 => ⟨S8x3x512x768, .f32⟩
  | 5 => ⟨S8x3x512x768, .f32⟩
  | 6 => ⟨S8x3x512x768, .f32⟩
  | 7 => ⟨S_, .f32⟩
  | 8 => ⟨S8x3x512x768, .f32⟩
  | 9 => ⟨S8x3x512x768, .f32⟩
  | 10 => ⟨S8x3x512x768, .f32⟩
  | 11 => ⟨S8x3x512x768, .f32⟩
  | 12 => ⟨S8x3x512x768, .f32⟩
  | 13 => ⟨S8x3x512x768, .f32⟩
  | 14 => ⟨S8x3x512x768, .f32⟩
  | 15 => ⟨S8x3x512x768, .f32⟩
  | 16 => ⟨S_, .i32⟩
  | 17 => ⟨S_, .i32⟩
  | 18 => ⟨S_, .i32⟩
  | 19 => ⟨S_, .i32⟩
  | 20 => ⟨S8x3x512x768, .f32⟩
  | 21 => ⟨S8x3x512x768, .f32⟩
  | 22 => ⟨S8x3x512x768, .f32⟩
  | 23 => ⟨S8x3x512x768, .f32⟩
  | 24 => ⟨S_, .f32⟩
  | 25 => ⟨S8x3x512x768, .f32⟩
  | 26 => ⟨S8x3x512x768, .f32⟩
  | 27 => ⟨S8x3x512x768, .f32⟩
  | 28 => ⟨S8x3x512x768, .f32⟩
  | 29 => ⟨S8x3x512x768, .f32⟩
  | 30 => ⟨S8x3x512x768, .f32⟩
  | 31 => ⟨S8x3x512x768, .f32⟩
  | 32 => ⟨S8x3x512x768, .f32⟩
  | 33 => ⟨S_, .i32⟩
  | 34 => ⟨S_, .i32⟩
  | 35 => ⟨S_, .i32⟩
  | 36 => ⟨S_, .i32⟩
  | 37 => ⟨S8x3x512x768, .f32⟩
  | 38 => ⟨S8x3x512x768, .f32⟩
  | 39 => ⟨S8x3x512x768, .f32⟩
  | 40 => ⟨S8x3x512x768, .f32⟩
  | 41 => ⟨S_, .f32⟩
  | 42 => ⟨S8x3x512x768, .f32⟩
  | 43 => ⟨S8x3x512x768, .f32⟩
  | 44 => ⟨S8x3x512x768, .f32⟩
  | 45 => ⟨S8x3x512x768, .f32⟩
  | 46 => ⟨S8x3x512x768, .f32⟩
  | 47 => ⟨S8x3x512x768, .f32⟩
  | 48 => ⟨S8x3x512x768, .f32⟩
  | 49 => ⟨S8x3x512x768, .f32⟩
  | 50 => ⟨S_, .i32⟩
  | 51 => ⟨S_, .i32⟩
  | 52 => ⟨S_, .i32⟩
  | 53 => ⟨S_, .i32⟩
  | 54 => ⟨S8x3x512x768, .f32⟩
  | 55 => ⟨S8x3x512x768, .f32⟩
  | 56 => ⟨S8x3x512x768, .f32⟩
  | 57 => ⟨S8x3x512x768, .f32⟩
  | 58 => ⟨S_, .f32⟩
  | 59 => ⟨S8x3x512x768, .f32⟩
  | 60 => ⟨S8x3x512x768, .f32⟩
  | 61 => ⟨S8x3x512x768, .f32⟩
  | 62 => ⟨S8x3x512x768, .f32⟩
  | 63 => ⟨S8x3x512x768, .f32⟩
  | 64 => ⟨S8x3x512x768, .f32⟩
  | 65 => ⟨S8x3x512x768, .f32⟩
  | 66 => ⟨S8x3x512x768, .f32⟩
  | 67 => ⟨S_, .i32⟩
  | 68 => ⟨S_, .i32⟩
  | 69 => ⟨S_, .i32⟩
  | 70 => ⟨S_, .i32⟩
  | 71 => ⟨S8x3x512x768, .f32⟩
  | 72 => ⟨S8x3x512x768, .f32⟩
  | 73 => ⟨S8x3x512x768, .f32⟩
  | 74 => ⟨S8x3x512x768, .f32⟩
  | 75 => ⟨S_, .f32⟩
  | 76 => ⟨S8x3x512x768, .f32⟩
  | 77 => ⟨S8x3x512x768, .f32⟩
  | 78 => ⟨S8x3x512x768, .f32⟩
  | 79 => ⟨S8x3x512x768, .f32⟩
  | 80 => ⟨S8x3x512x768, .f32⟩
  | 81 => ⟨S8x3x512x768, .f32⟩
  | 82 => ⟨S8x3x512x768, .f32⟩
  | 83 => ⟨S8x3x512x768, .f32⟩
  | 84 => ⟨S_, .i32⟩
  | 85 => ⟨S_, .i32⟩
  | 86 => ⟨S_, .i32⟩
  | 87 => ⟨S_, .i32⟩
  | 88 => ⟨S8x3x512x768, .f32⟩
  | 89 => ⟨S8x3x512x768, .f32⟩
  | 90 => ⟨S8x3x512x768, .f32⟩
  | 91 => ⟨S8x3x512x768, .f32⟩
  | 92 => ⟨S_, .f32⟩
  | 93 => ⟨S8x3x512x768, .f32⟩
  | 94 => ⟨S8x3x512x768, .f32⟩
  | 95 => ⟨S8x3x512x768, .f32⟩
  | 96 => ⟨S8x3x512x768, .f32⟩
  | 97 => ⟨S8x3x512x768, .f32⟩
  | 98 => ⟨S8x3x512x768, .f32⟩
  | 99 => ⟨S8x3x512x768, .f32⟩
  | 100 => ⟨S8x3x512x768, .f32⟩
  | 101 => ⟨S_, .i32⟩
  | 102 => ⟨S_, .i32⟩
  | 103 => ⟨S_, .i32⟩
  | 104 => ⟨S_, .i32⟩
  | 105 => ⟨S8x3x512x768, .f32⟩
  | 106 => ⟨S8x3x512x768, .f32⟩
  | 107 => ⟨S8x3x512x768, .f32⟩
  | 108 => ⟨S8x3x512x768, .f32⟩
  | 109 => ⟨S_, .f32⟩
  | 110 => ⟨S8x3x512x768, .f32⟩
  | 111 => ⟨S8x3x512x768, .f32⟩
  | 112 => ⟨S8x3x512x768, .f32⟩
  | 113 => ⟨S8x3x512x768, .f32⟩
  | 114 => ⟨S8x3x512x768, .f32⟩
  | 115 => ⟨S8x3x512x768, .f32⟩
  | 116 => ⟨S8x3x512x768, .f32⟩
  | 117 => ⟨S8x3x512x768, .f32⟩
  | 118 => ⟨S_, .i32⟩
  | 119 => ⟨S_, .i32⟩
  | 120 => ⟨S_, .i32⟩
  | 121 => ⟨S_, .i32⟩
  | 122 => ⟨S8x3x512x768, .f32⟩
  | 123 => ⟨S8x3x512x768, .f32⟩
  | 124 => ⟨S8x3x512x768, .f32⟩
  | 125 => ⟨S8x3x512x768, .f32⟩
  | 126 => ⟨S_, .f32⟩
  | 127 => ⟨S8x3x512x768, .f32⟩
  | _ => ⟨S8x3x512x768, .f32⟩

abbrev hbmTy0_4 (i : Nat) : BufTy := match i % 128 with
  | 0 => ⟨S8x3x512x768, .f32⟩
  | 1 => ⟨S8x3x512x768, .f32⟩
  | 2 => ⟨S8x3x512x768, .f32⟩
  | 3 => ⟨S8x3x512x768, .f32⟩
  | 4 => ⟨S8x3x512x768, .f32⟩
  | 5 => ⟨S8x3x512x768, .f32⟩
  | 6 => ⟨S8x3x512x768, .f32⟩
  | 7 => ⟨S_, .i32⟩
  | 8 => ⟨S_, .i32⟩
  | 9 => ⟨S_, .i32⟩
  | 10 => ⟨S_, .i32⟩
  | 11 => ⟨S8x3x512x768, .f32⟩
  | 12 => ⟨S8x3x512x768, .f32⟩
  | 13 => ⟨S8x3x512x768, .f32⟩
  | 14 => ⟨S8x3x512x768, .f32⟩
  | 15 => ⟨S_, .f32⟩
  | 16 => ⟨S8x3x512x768, .f32⟩
  | 17 => ⟨S8x3x512x768, .f32⟩
  | 18 => ⟨S8x3x512x768, .f32⟩
  | 19 => ⟨S8x3x512x768, .f32⟩
  | 20 => ⟨S8x3x512x768, .f32⟩
  | 21 => ⟨S8x3x512x768, .f32⟩
  | 22 => ⟨S8x3x512x768, .f32⟩
  | 23 => ⟨S8x3x512x768, .f32⟩
  | 24 => ⟨S_, .i32⟩
  | 25 => ⟨S_, .i32⟩
  | 26 => ⟨S_, .i32⟩
  | 27 => ⟨S_, .i32⟩
  | 28 => ⟨S8x3x512x768, .f32⟩
  | 29 => ⟨S8x3x512x768, .f32⟩
  | 30 => ⟨S8x3x512x768, .f32⟩
  | 31 => ⟨S8x3x512x768, .f32⟩
  | 32 => ⟨S_, .f32⟩
  | 33 => ⟨S8x3x512x768, .f32⟩
  | 34 => ⟨S8x3x512x768, .f32⟩
  | 35 => ⟨S8x3x512x768, .f32⟩
  | 36 => ⟨S8x3x512x768, .f32⟩
  | 37 => ⟨S8x3x512x768, .f32⟩
  | 38 => ⟨S8x3x512x768, .f32⟩
  | 39 => ⟨S8x3x512x768, .f32⟩
  | 40 => ⟨S8x3x512x768, .f32⟩
  | 41 => ⟨S_, .i32⟩
  | 42 => ⟨S_, .i32⟩
  | 43 => ⟨S_, .i32⟩
  | 44 => ⟨S_, .i32⟩
  | 45 => ⟨S8x3x512x768, .f32⟩
  | 46 => ⟨S8x3x512x768, .f32⟩
  | 47 => ⟨S8x3x512x768, .f32⟩
  | 48 => ⟨S8x3x512x768, .f32⟩
  | 49 => ⟨S_, .f32⟩
  | 50 => ⟨S8x3x512x768, .f32⟩
  | 51 => ⟨S8x3x512x768, .f32⟩
  | 52 => ⟨S8x3x512x768, .f32⟩
  | 53 => ⟨S8x3x512x768, .f32⟩
  | 54 => ⟨S8x3x512x768, .f32⟩
  | 55 => ⟨S8x3x512x768, .f32⟩
  | 56 => ⟨S8x3x512x768, .f32⟩
  | 57 => ⟨S8x3x512x768, .f32⟩
  | 58 => ⟨S_, .i32⟩
  | 59 => ⟨S_, .i32⟩
  | 60 => ⟨S_, .i32⟩
  | 61 => ⟨S_, .i32⟩
  | 62 => ⟨S8x3x512x768, .f32⟩
  | 63 => ⟨S8x3x512x768, .f32⟩
  | 64 => ⟨S8x3x512x768, .f32⟩
  | 65 => ⟨S8x3x512x768, .f32⟩
  | 66 => ⟨S_, .f32⟩
  | 67 => ⟨S8x3x512x768, .f32⟩
  | 68 => ⟨S8x3x512x768, .f32⟩
  | 69 => ⟨S8x3x512x768, .f32⟩
  | 70 => ⟨S8x3x512x768, .f32⟩
  | 71 => ⟨S8x3x512x768, .f32⟩
  | 72 => ⟨S8x3x512x768, .f32⟩
  | 73 => ⟨S8x3x512x768, .f32⟩
  | 74 => ⟨S8x3x512x768, .f32⟩
  | 75 => ⟨S_, .i32⟩
  | 76 => ⟨S_, .i32⟩
  | 77 => ⟨S_, .i32⟩
  | 78 => ⟨S_, .i32⟩
  | 79 => ⟨S8x3x512x768, .f32⟩
  | 80 => ⟨S8x3x512x768, .f32⟩
  | 81 => ⟨S8x3x512x768, .f32⟩
  | 82 => ⟨S8x3x512x768, .f32⟩
  | 83 => ⟨S_, .f32⟩
  | 84 => ⟨S8x3x512x768, .f32⟩
  | 85 => ⟨S8x3x512x768, .f32⟩
  | 86 => ⟨S8x3x512x768, .f32⟩
  | 87 => ⟨S8x3x512x768, .f32⟩
  | 88 => ⟨S8x3x512x768, .f32⟩
  | 89 => ⟨S8x3x512x768, .f32⟩
  | 90 => ⟨S8x3x512x768, .f32⟩
  | 91 => ⟨S8x3x512x768, .f32⟩
  | 92 => ⟨S_, .i32⟩
  | 93 => ⟨S_, .i32⟩
  | 94 => ⟨S_, .i32⟩
  | 95 => ⟨S_, .i32⟩
  | 96 => ⟨S8x3x512x768, .f32⟩
  | 97 => ⟨S8x3x512x768, .f32⟩
  | 98 => ⟨S8x3x512x768, .f32⟩
  | 99 => ⟨S8x3x512x768, .f32⟩
  | 100 => ⟨S_, .f32⟩
  | 101 => ⟨S8x3x512x768, .f32⟩
  | 102 => ⟨S8x3x512x768, .f32⟩
  | 103 => ⟨S8x3x512x768, .f32⟩
  | 104 => ⟨S8x3x512x768, .f32⟩
  | 105 => ⟨S8x3x512x768, .f32⟩
  | 106 => ⟨S8x3x512x768, .f32⟩
  | 107 => ⟨S8x3x512x768, .f32⟩
  | 108 => ⟨S8x3x512x768, .f32⟩
  | 109 => ⟨S8x3x512x768, .f32⟩
  | _ => ⟨S8x3x512x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x3x512x768, .f32⟩

abbrev bufTy : (tb : Table) → Fin (tcTables nBuf tb) → BufTy
  | .hbm, ⟨i, _⟩ => hbmTy i
  | _, _ => ⟨S8x3x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_6 : Ref sig .tc := ⟨.hbm, 26, rfl⟩
abbrev main_c_7 : Ref sig .tc := ⟨.hbm, 27, rfl⟩
abbrev main_c_8 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_10 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_11 : Ref sig .tc := ⟨.hbm, 43, rfl⟩
abbrev main_c_12 : Ref sig .tc := ⟨.hbm, 44, rfl⟩
abbrev main_c_13 : Ref sig .tc := ⟨.hbm, 45, rfl⟩
abbrev main_c_14 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_15 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_16 : Ref sig .tc := ⟨.hbm, 60, rfl⟩
abbrev main_c_17 : Ref sig .tc := ⟨.hbm, 61, rfl⟩
abbrev main_c_18 : Ref sig .tc := ⟨.hbm, 62, rfl⟩
abbrev main_c_19 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_20 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_21 : Ref sig .tc := ⟨.hbm, 77, rfl⟩
abbrev main_c_22 : Ref sig .tc := ⟨.hbm, 78, rfl⟩
abbrev main_c_23 : Ref sig .tc := ⟨.hbm, 79, rfl⟩
abbrev main_c_24 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_25 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_26 : Ref sig .tc := ⟨.hbm, 94, rfl⟩
abbrev main_c_27 : Ref sig .tc := ⟨.hbm, 95, rfl⟩
abbrev main_c_28 : Ref sig .tc := ⟨.hbm, 96, rfl⟩
abbrev main_c_29 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_30 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_31 : Ref sig .tc := ⟨.hbm, 111, rfl⟩
abbrev main_c_32 : Ref sig .tc := ⟨.hbm, 112, rfl⟩
abbrev main_c_33 : Ref sig .tc := ⟨.hbm, 113, rfl⟩
abbrev main_c_34 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_35 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_36 : Ref sig .tc := ⟨.hbm, 128, rfl⟩
abbrev main_c_37 : Ref sig .tc := ⟨.hbm, 129, rfl⟩
abbrev main_c_38 : Ref sig .tc := ⟨.hbm, 130, rfl⟩
abbrev main_c_39 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_40 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_41 : Ref sig .tc := ⟨.hbm, 145, rfl⟩
abbrev main_c_42 : Ref sig .tc := ⟨.hbm, 146, rfl⟩
abbrev main_c_43 : Ref sig .tc := ⟨.hbm, 147, rfl⟩
abbrev main_c_44 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_45 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_46 : Ref sig .tc := ⟨.hbm, 162, rfl⟩
abbrev main_c_47 : Ref sig .tc := ⟨.hbm, 163, rfl⟩
abbrev main_c_48 : Ref sig .tc := ⟨.hbm, 164, rfl⟩
abbrev main_c_49 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_50 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_c_51 : Ref sig .tc := ⟨.hbm, 179, rfl⟩
abbrev main_c_52 : Ref sig .tc := ⟨.hbm, 180, rfl⟩
abbrev main_c_53 : Ref sig .tc := ⟨.hbm, 181, rfl⟩
abbrev main_c_54 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_55 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_c_56 : Ref sig .tc := ⟨.hbm, 196, rfl⟩
abbrev main_c_57 : Ref sig .tc := ⟨.hbm, 197, rfl⟩
abbrev main_c_58 : Ref sig .tc := ⟨.hbm, 198, rfl⟩
abbrev main_c_59 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_60 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_c_61 : Ref sig .tc := ⟨.hbm, 213, rfl⟩
abbrev main_c_62 : Ref sig .tc := ⟨.hbm, 214, rfl⟩
abbrev main_c_63 : Ref sig .tc := ⟨.hbm, 215, rfl⟩
abbrev main_c_64 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_cst_65 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_c_66 : Ref sig .tc := ⟨.hbm, 230, rfl⟩
abbrev main_c_67 : Ref sig .tc := ⟨.hbm, 231, rfl⟩
abbrev main_c_68 : Ref sig .tc := ⟨.hbm, 232, rfl⟩
abbrev main_c_69 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_cst_70 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_c_71 : Ref sig .tc := ⟨.hbm, 247, rfl⟩
abbrev main_c_72 : Ref sig .tc := ⟨.hbm, 248, rfl⟩
abbrev main_c_73 : Ref sig .tc := ⟨.hbm, 249, rfl⟩
abbrev main_c_74 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_cst_75 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_c_76 : Ref sig .tc := ⟨.hbm, 264, rfl⟩
abbrev main_c_77 : Ref sig .tc := ⟨.hbm, 265, rfl⟩
abbrev main_c_78 : Ref sig .tc := ⟨.hbm, 266, rfl⟩
abbrev main_c_79 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_cst_80 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_c_81 : Ref sig .tc := ⟨.hbm, 281, rfl⟩
abbrev main_c_82 : Ref sig .tc := ⟨.hbm, 282, rfl⟩
abbrev main_c_83 : Ref sig .tc := ⟨.hbm, 283, rfl⟩
abbrev main_c_84 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_cst_85 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_c_86 : Ref sig .tc := ⟨.hbm, 298, rfl⟩
abbrev main_c_87 : Ref sig .tc := ⟨.hbm, 299, rfl⟩
abbrev main_c_88 : Ref sig .tc := ⟨.hbm, 300, rfl⟩
abbrev main_c_89 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_cst_90 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_c_91 : Ref sig .tc := ⟨.hbm, 315, rfl⟩
abbrev main_c_92 : Ref sig .tc := ⟨.hbm, 316, rfl⟩
abbrev main_c_93 : Ref sig .tc := ⟨.hbm, 317, rfl⟩
abbrev main_c_94 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_cst_95 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_c_96 : Ref sig .tc := ⟨.hbm, 332, rfl⟩
abbrev main_c_97 : Ref sig .tc := ⟨.hbm, 333, rfl⟩
abbrev main_c_98 : Ref sig .tc := ⟨.hbm, 334, rfl⟩
abbrev main_c_99 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_cst_100 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_c_101 : Ref sig .tc := ⟨.hbm, 349, rfl⟩
abbrev main_c_102 : Ref sig .tc := ⟨.hbm, 350, rfl⟩
abbrev main_c_103 : Ref sig .tc := ⟨.hbm, 351, rfl⟩
abbrev main_c_104 : Ref sig .tc := ⟨.hbm, 352, rfl⟩
abbrev main_v243 : Ref sig .tc := ⟨.hbm, 353, rfl⟩
abbrev main_v244 : Ref sig .tc := ⟨.hbm, 354, rfl⟩
abbrev main_v245 : Ref sig .tc := ⟨.hbm, 355, rfl⟩
abbrev main_v246 : Ref sig .tc := ⟨.hbm, 356, rfl⟩
abbrev main_cst_105 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_v252 : Ref sig .tc := ⟨.hbm, 363, rfl⟩
abbrev main_v253 : Ref sig .tc := ⟨.hbm, 364, rfl⟩
abbrev main_v254 : Ref sig .tc := ⟨.hbm, 365, rfl⟩
abbrev main_c_106 : Ref sig .tc := ⟨.hbm, 366, rfl⟩
abbrev main_c_107 : Ref sig .tc := ⟨.hbm, 367, rfl⟩
abbrev main_c_108 : Ref sig .tc := ⟨.hbm, 368, rfl⟩
abbrev main_c_109 : Ref sig .tc := ⟨.hbm, 369, rfl⟩
abbrev main_v255 : Ref sig .tc := ⟨.hbm, 370, rfl⟩
abbrev main_v256 : Ref sig .tc := ⟨.hbm, 371, rfl⟩
abbrev main_v257 : Ref sig .tc := ⟨.hbm, 372, rfl⟩
abbrev main_v258 : Ref sig .tc := ⟨.hbm, 373, rfl⟩
abbrev main_cst_110 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_v262 : Ref sig .tc := ⟨.hbm, 378, rfl⟩
abbrev main_v263 : Ref sig .tc := ⟨.hbm, 379, rfl⟩
abbrev main_v264 : Ref sig .tc := ⟨.hbm, 380, rfl⟩
abbrev main_v265 : Ref sig .tc := ⟨.hbm, 381, rfl⟩
abbrev main_v266 : Ref sig .tc := ⟨.hbm, 382, rfl⟩
abbrev main_c_111 : Ref sig .tc := ⟨.hbm, 383, rfl⟩
abbrev main_c_112 : Ref sig .tc := ⟨.hbm, 384, rfl⟩
abbrev main_c_113 : Ref sig .tc := ⟨.hbm, 385, rfl⟩
abbrev main_c_114 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_cst_115 : Ref sig .tc := ⟨.hbm, 391, rfl⟩
abbrev main_v271 : Ref sig .tc := ⟨.hbm, 392, rfl⟩
abbrev main_v272 : Ref sig .tc := ⟨.hbm, 393, rfl⟩
abbrev main_v273 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_v278 : Ref sig .tc := ⟨.hbm, 399, rfl⟩
abbrev main_c_116 : Ref sig .tc := ⟨.hbm, 400, rfl⟩
abbrev main_c_117 : Ref sig .tc := ⟨.hbm, 401, rfl⟩
abbrev main_c_118 : Ref sig .tc := ⟨.hbm, 402, rfl⟩
abbrev main_c_119 : Ref sig .tc := ⟨.hbm, 403, rfl⟩
abbrev main_v279 : Ref sig .tc := ⟨.hbm, 404, rfl⟩
abbrev main_v280 : Ref sig .tc := ⟨.hbm, 405, rfl⟩
abbrev main_v281 : Ref sig .tc := ⟨.hbm, 406, rfl⟩
abbrev main_v282 : Ref sig .tc := ⟨.hbm, 407, rfl⟩
abbrev main_cst_120 : Ref sig .tc := ⟨.hbm, 408, rfl⟩
abbrev main_v283 : Ref sig .tc := ⟨.hbm, 409, rfl⟩
abbrev main_v284 : Ref sig .tc := ⟨.hbm, 410, rfl⟩
abbrev main_v285 : Ref sig .tc := ⟨.hbm, 411, rfl⟩
abbrev main_v286 : Ref sig .tc := ⟨.hbm, 412, rfl⟩
abbrev main_v287 : Ref sig .tc := ⟨.hbm, 413, rfl⟩
abbrev main_v288 : Ref sig .tc := ⟨.hbm, 414, rfl⟩
abbrev main_v289 : Ref sig .tc := ⟨.hbm, 415, rfl⟩
abbrev main_v290 : Ref sig .tc := ⟨.hbm, 416, rfl⟩
abbrev main_c_121 : Ref sig .tc := ⟨.hbm, 417, rfl⟩
abbrev main_c_122 : Ref sig .tc := ⟨.hbm, 418, rfl⟩
abbrev main_c_123 : Ref sig .tc := ⟨.hbm, 419, rfl⟩
abbrev main_c_124 : Ref sig .tc := ⟨.hbm, 420, rfl⟩
abbrev main_v291 : Ref sig .tc := ⟨.hbm, 421, rfl⟩
abbrev main_v292 : Ref sig .tc := ⟨.hbm, 422, rfl⟩
abbrev main_v293 : Ref sig .tc := ⟨.hbm, 423, rfl⟩
abbrev main_v294 : Ref sig .tc := ⟨.hbm, 424, rfl⟩
abbrev main_cst_125 : Ref sig .tc := ⟨.hbm, 425, rfl⟩
abbrev main_v295 : Ref sig .tc := ⟨.hbm, 426, rfl⟩
abbrev main_v296 : Ref sig .tc := ⟨.hbm, 427, rfl⟩
abbrev main_v297 : Ref sig .tc := ⟨.hbm, 428, rfl⟩
abbrev main_v298 : Ref sig .tc := ⟨.hbm, 429, rfl⟩
abbrev main_v299 : Ref sig .tc := ⟨.hbm, 430, rfl⟩
abbrev main_v300 : Ref sig .tc := ⟨.hbm, 431, rfl⟩
abbrev main_v301 : Ref sig .tc := ⟨.hbm, 432, rfl⟩
abbrev main_v302 : Ref sig .tc := ⟨.hbm, 433, rfl⟩
abbrev main_c_126 : Ref sig .tc := ⟨.hbm, 434, rfl⟩
abbrev main_c_127 : Ref sig .tc := ⟨.hbm, 435, rfl⟩
abbrev main_c_128 : Ref sig .tc := ⟨.hbm, 436, rfl⟩
abbrev main_c_129 : Ref sig .tc := ⟨.hbm, 437, rfl⟩
abbrev main_v303 : Ref sig .tc := ⟨.hbm, 438, rfl⟩
abbrev main_v304 : Ref sig .tc := ⟨.hbm, 439, rfl⟩
abbrev main_v305 : Ref sig .tc := ⟨.hbm, 440, rfl⟩
abbrev main_v306 : Ref sig .tc := ⟨.hbm, 441, rfl⟩
abbrev main_cst_130 : Ref sig .tc := ⟨.hbm, 442, rfl⟩
abbrev main_v307 : Ref sig .tc := ⟨.hbm, 443, rfl⟩
abbrev main_v308 : Ref sig .tc := ⟨.hbm, 444, rfl⟩
abbrev main_v309 : Ref sig .tc := ⟨.hbm, 445, rfl⟩
abbrev main_v310 : Ref sig .tc := ⟨.hbm, 446, rfl⟩
abbrev main_v311 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_c_131 : Ref sig .tc := ⟨.hbm, 451, rfl⟩
abbrev main_c_132 : Ref sig .tc := ⟨.hbm, 452, rfl⟩
abbrev main_c_133 : Ref sig .tc := ⟨.hbm, 453, rfl⟩
abbrev main_c_134 : Ref sig .tc := ⟨.hbm, 454, rfl⟩
abbrev main_v315 : Ref sig .tc := ⟨.hbm, 455, rfl⟩
abbrev main_v316 : Ref sig .tc := ⟨.hbm, 456, rfl⟩
abbrev main_v317 : Ref sig .tc := ⟨.hbm, 457, rfl⟩
abbrev main_v318 : Ref sig .tc := ⟨.hbm, 458, rfl⟩
abbrev main_cst_135 : Ref sig .tc := ⟨.hbm, 459, rfl⟩
abbrev main_v319 : Ref sig .tc := ⟨.hbm, 460, rfl⟩
abbrev main_v320 : Ref sig .tc := ⟨.hbm, 461, rfl⟩
abbrev main_v321 : Ref sig .tc := ⟨.hbm, 462, rfl⟩
abbrev main_v322 : Ref sig .tc := ⟨.hbm, 463, rfl⟩
abbrev main_v323 : Ref sig .tc := ⟨.hbm, 464, rfl⟩
abbrev main_v324 : Ref sig .tc := ⟨.hbm, 465, rfl⟩
abbrev main_v325 : Ref sig .tc := ⟨.hbm, 466, rfl⟩
abbrev main_v326 : Ref sig .tc := ⟨.hbm, 467, rfl⟩
abbrev main_c_136 : Ref sig .tc := ⟨.hbm, 468, rfl⟩
abbrev main_c_137 : Ref sig .tc := ⟨.hbm, 469, rfl⟩
abbrev main_c_138 : Ref sig .tc := ⟨.hbm, 470, rfl⟩
abbrev main_c_139 : Ref sig .tc := ⟨.hbm, 471, rfl⟩
abbrev main_v327 : Ref sig .tc := ⟨.hbm, 472, rfl⟩
abbrev main_v328 : Ref sig .tc := ⟨.hbm, 473, rfl⟩
abbrev main_v329 : Ref sig .tc := ⟨.hbm, 474, rfl⟩
abbrev main_v330 : Ref sig .tc := ⟨.hbm, 475, rfl⟩
abbrev main_cst_140 : Ref sig .tc := ⟨.hbm, 476, rfl⟩
abbrev main_v331 : Ref sig .tc := ⟨.hbm, 477, rfl⟩
abbrev main_v332 : Ref sig .tc := ⟨.hbm, 478, rfl⟩
abbrev main_v333 : Ref sig .tc := ⟨.hbm, 479, rfl⟩
abbrev main_v334 : Ref sig .tc := ⟨.hbm, 480, rfl⟩
abbrev main_v335 : Ref sig .tc := ⟨.hbm, 481, rfl⟩
abbrev main_v336 : Ref sig .tc := ⟨.hbm, 482, rfl⟩
abbrev main_v337 : Ref sig .tc := ⟨.hbm, 483, rfl⟩
abbrev main_v338 : Ref sig .tc := ⟨.hbm, 484, rfl⟩
abbrev main_c_141 : Ref sig .tc := ⟨.hbm, 485, rfl⟩
abbrev main_c_142 : Ref sig .tc := ⟨.hbm, 486, rfl⟩
abbrev main_c_143 : Ref sig .tc := ⟨.hbm, 487, rfl⟩
abbrev main_c_144 : Ref sig .tc := ⟨.hbm, 488, rfl⟩
abbrev main_v339 : Ref sig .tc := ⟨.hbm, 489, rfl⟩
abbrev main_v340 : Ref sig .tc := ⟨.hbm, 490, rfl⟩
abbrev main_v341 : Ref sig .tc := ⟨.hbm, 491, rfl⟩
abbrev main_v342 : Ref sig .tc := ⟨.hbm, 492, rfl⟩
abbrev main_cst_145 : Ref sig .tc := ⟨.hbm, 493, rfl⟩
abbrev main_v343 : Ref sig .tc := ⟨.hbm, 494, rfl⟩
abbrev main_v344 : Ref sig .tc := ⟨.hbm, 495, rfl⟩
abbrev main_v345 : Ref sig .tc := ⟨.hbm, 496, rfl⟩
abbrev main_v346 : Ref sig .tc := ⟨.hbm, 497, rfl⟩
abbrev main_v347 : Ref sig .tc := ⟨.hbm, 498, rfl⟩
abbrev main_v348 : Ref sig .tc := ⟨.hbm, 499, rfl⟩
abbrev main_v349 : Ref sig .tc := ⟨.hbm, 500, rfl⟩
abbrev main_v350 : Ref sig .tc := ⟨.hbm, 501, rfl⟩
abbrev main_c_146 : Ref sig .tc := ⟨.hbm, 502, rfl⟩
abbrev main_c_147 : Ref sig .tc := ⟨.hbm, 503, rfl⟩
abbrev main_c_148 : Ref sig .tc := ⟨.hbm, 504, rfl⟩
abbrev main_c_149 : Ref sig .tc := ⟨.hbm, 505, rfl⟩
abbrev main_v351 : Ref sig .tc := ⟨.hbm, 506, rfl⟩
abbrev main_v352 : Ref sig .tc := ⟨.hbm, 507, rfl⟩
abbrev main_v353 : Ref sig .tc := ⟨.hbm, 508, rfl⟩
abbrev main_v354 : Ref sig .tc := ⟨.hbm, 509, rfl⟩
abbrev main_cst_150 : Ref sig .tc := ⟨.hbm, 510, rfl⟩
abbrev main_v355 : Ref sig .tc := ⟨.hbm, 511, rfl⟩
abbrev main_v356 : Ref sig .tc := ⟨.hbm, 512, rfl⟩
abbrev main_v357 : Ref sig .tc := ⟨.hbm, 513, rfl⟩
abbrev main_v358 : Ref sig .tc := ⟨.hbm, 514, rfl⟩
abbrev main_v359 : Ref sig .tc := ⟨.hbm, 515, rfl⟩
abbrev main_v360 : Ref sig .tc := ⟨.hbm, 516, rfl⟩
abbrev main_v361 : Ref sig .tc := ⟨.hbm, 517, rfl⟩
abbrev main_v362 : Ref sig .tc := ⟨.hbm, 518, rfl⟩
abbrev main_c_151 : Ref sig .tc := ⟨.hbm, 519, rfl⟩
abbrev main_c_152 : Ref sig .tc := ⟨.hbm, 520, rfl⟩
abbrev main_c_153 : Ref sig .tc := ⟨.hbm, 521, rfl⟩
abbrev main_c_154 : Ref sig .tc := ⟨.hbm, 522, rfl⟩
abbrev main_v363 : Ref sig .tc := ⟨.hbm, 523, rfl⟩
abbrev main_v364 : Ref sig .tc := ⟨.hbm, 524, rfl⟩
abbrev main_v365 : Ref sig .tc := ⟨.hbm, 525, rfl⟩
abbrev main_v366 : Ref sig .tc := ⟨.hbm, 526, rfl⟩
abbrev main_cst_155 : Ref sig .tc := ⟨.hbm, 527, rfl⟩
abbrev main_v367 : Ref sig .tc := ⟨.hbm, 528, rfl⟩
abbrev main_v368 : Ref sig .tc := ⟨.hbm, 529, rfl⟩
abbrev main_v369 : Ref sig .tc := ⟨.hbm, 530, rfl⟩
abbrev main_v370 : Ref sig .tc := ⟨.hbm, 531, rfl⟩
abbrev main_v371 : Ref sig .tc := ⟨.hbm, 532, rfl⟩
abbrev main_v372 : Ref sig .tc := ⟨.hbm, 533, rfl⟩
abbrev main_v373 : Ref sig .tc := ⟨.hbm, 534, rfl⟩
abbrev main_v374 : Ref sig .tc := ⟨.hbm, 535, rfl⟩
abbrev main_c_156 : Ref sig .tc := ⟨.hbm, 536, rfl⟩
abbrev main_c_157 : Ref sig .tc := ⟨.hbm, 537, rfl⟩
abbrev main_c_158 : Ref sig .tc := ⟨.hbm, 538, rfl⟩
abbrev main_c_159 : Ref sig .tc := ⟨.hbm, 539, rfl⟩
abbrev main_v375 : Ref sig .tc := ⟨.hbm, 540, rfl⟩
abbrev main_v376 : Ref sig .tc := ⟨.hbm, 541, rfl⟩
abbrev main_v377 : Ref sig .tc := ⟨.hbm, 542, rfl⟩
abbrev main_v378 : Ref sig .tc := ⟨.hbm, 543, rfl⟩
abbrev main_cst_160 : Ref sig .tc := ⟨.hbm, 544, rfl⟩
abbrev main_v379 : Ref sig .tc := ⟨.hbm, 545, rfl⟩
abbrev main_v380 : Ref sig .tc := ⟨.hbm, 546, rfl⟩
abbrev main_v381 : Ref sig .tc := ⟨.hbm, 547, rfl⟩
abbrev main_v382 : Ref sig .tc := ⟨.hbm, 548, rfl⟩
abbrev main_v383 : Ref sig .tc := ⟨.hbm, 549, rfl⟩
abbrev main_v384 : Ref sig .tc := ⟨.hbm, 550, rfl⟩
abbrev main_v385 : Ref sig .tc := ⟨.hbm, 551, rfl⟩
abbrev main_v386 : Ref sig .tc := ⟨.hbm, 552, rfl⟩
abbrev main_c_161 : Ref sig .tc := ⟨.hbm, 553, rfl⟩
abbrev main_c_162 : Ref sig .tc := ⟨.hbm, 554, rfl⟩
abbrev main_c_163 : Ref sig .tc := ⟨.hbm, 555, rfl⟩
abbrev main_c_164 : Ref sig .tc := ⟨.hbm, 556, rfl⟩
abbrev main_v387 : Ref sig .tc := ⟨.hbm, 557, rfl⟩
abbrev main_v388 : Ref sig .tc := ⟨.hbm, 558, rfl⟩
abbrev main_v389 : Ref sig .tc := ⟨.hbm, 559, rfl⟩
abbrev main_v390 : Ref sig .tc := ⟨.hbm, 560, rfl⟩
abbrev main_cst_165 : Ref sig .tc := ⟨.hbm, 561, rfl⟩
abbrev main_v391 : Ref sig .tc := ⟨.hbm, 562, rfl⟩
abbrev main_v392 : Ref sig .tc := ⟨.hbm, 563, rfl⟩
abbrev main_v393 : Ref sig .tc := ⟨.hbm, 564, rfl⟩
abbrev main_v394 : Ref sig .tc := ⟨.hbm, 565, rfl⟩
abbrev main_v395 : Ref sig .tc := ⟨.hbm, 566, rfl⟩
abbrev main_v396 : Ref sig .tc := ⟨.hbm, 567, rfl⟩
abbrev main_v397 : Ref sig .tc := ⟨.hbm, 568, rfl⟩
abbrev main_v398 : Ref sig .tc := ⟨.hbm, 569, rfl⟩
abbrev main_c_166 : Ref sig .tc := ⟨.hbm, 570, rfl⟩
abbrev main_c_167 : Ref sig .tc := ⟨.hbm, 571, rfl⟩
abbrev main_c_168 : Ref sig .tc := ⟨.hbm, 572, rfl⟩
abbrev main_c_169 : Ref sig .tc := ⟨.hbm, 573, rfl⟩
abbrev main_v399 : Ref sig .tc := ⟨.hbm, 574, rfl⟩
abbrev main_v400 : Ref sig .tc := ⟨.hbm, 575, rfl⟩
abbrev main_v401 : Ref sig .tc := ⟨.hbm, 576, rfl⟩
abbrev main_v402 : Ref sig .tc := ⟨.hbm, 577, rfl⟩
abbrev main_cst_170 : Ref sig .tc := ⟨.hbm, 578, rfl⟩
abbrev main_v403 : Ref sig .tc := ⟨.hbm, 579, rfl⟩
abbrev main_v404 : Ref sig .tc := ⟨.hbm, 580, rfl⟩
abbrev main_v405 : Ref sig .tc := ⟨.hbm, 581, rfl⟩
abbrev main_v406 : Ref sig .tc := ⟨.hbm, 582, rfl⟩
abbrev main_v407 : Ref sig .tc := ⟨.hbm, 583, rfl⟩
abbrev main_v408 : Ref sig .tc := ⟨.hbm, 584, rfl⟩
abbrev main_v409 : Ref sig .tc := ⟨.hbm, 585, rfl⟩
abbrev main_v410 : Ref sig .tc := ⟨.hbm, 586, rfl⟩
abbrev main_c_171 : Ref sig .tc := ⟨.hbm, 587, rfl⟩
abbrev main_c_172 : Ref sig .tc := ⟨.hbm, 588, rfl⟩
abbrev main_c_173 : Ref sig .tc := ⟨.hbm, 589, rfl⟩
abbrev main_c_174 : Ref sig .tc := ⟨.hbm, 590, rfl⟩
abbrev main_v411 : Ref sig .tc := ⟨.hbm, 591, rfl⟩
abbrev main_v412 : Ref sig .tc := ⟨.hbm, 592, rfl⟩
abbrev main_v413 : Ref sig .tc := ⟨.hbm, 593, rfl⟩
abbrev main_v414 : Ref sig .tc := ⟨.hbm, 594, rfl⟩
abbrev main_cst_175 : Ref sig .tc := ⟨.hbm, 595, rfl⟩
abbrev main_v415 : Ref sig .tc := ⟨.hbm, 596, rfl⟩
abbrev main_v416 : Ref sig .tc := ⟨.hbm, 597, rfl⟩
abbrev main_v417 : Ref sig .tc := ⟨.hbm, 598, rfl⟩
abbrev main_v418 : Ref sig .tc := ⟨.hbm, 599, rfl⟩
abbrev main_v419 : Ref sig .tc := ⟨.hbm, 600, rfl⟩
abbrev main_v420 : Ref sig .tc := ⟨.hbm, 601, rfl⟩
abbrev main_v421 : Ref sig .tc := ⟨.hbm, 602, rfl⟩
abbrev main_v422 : Ref sig .tc := ⟨.hbm, 603, rfl⟩
abbrev main_c_176 : Ref sig .tc := ⟨.hbm, 604, rfl⟩
abbrev main_c_177 : Ref sig .tc := ⟨.hbm, 605, rfl⟩
abbrev main_c_178 : Ref sig .tc := ⟨.hbm, 606, rfl⟩
abbrev main_c_179 : Ref sig .tc := ⟨.hbm, 607, rfl⟩
abbrev main_v423 : Ref sig .tc := ⟨.hbm, 608, rfl⟩
abbrev main_v424 : Ref sig .tc := ⟨.hbm, 609, rfl⟩
abbrev main_v425 : Ref sig .tc := ⟨.hbm, 610, rfl⟩
abbrev main_v426 : Ref sig .tc := ⟨.hbm, 611, rfl⟩
abbrev main_cst_180 : Ref sig .tc := ⟨.hbm, 612, rfl⟩
abbrev main_v427 : Ref sig .tc := ⟨.hbm, 613, rfl⟩
abbrev main_v428 : Ref sig .tc := ⟨.hbm, 614, rfl⟩
abbrev main_v429 : Ref sig .tc := ⟨.hbm, 615, rfl⟩
abbrev main_v430 : Ref sig .tc := ⟨.hbm, 616, rfl⟩
abbrev main_v431 : Ref sig .tc := ⟨.hbm, 617, rfl⟩
abbrev main_v432 : Ref sig .tc := ⟨.hbm, 618, rfl⟩
abbrev main_v433 : Ref sig .tc := ⟨.hbm, 619, rfl⟩
abbrev main_v434 : Ref sig .tc := ⟨.hbm, 620, rfl⟩
abbrev main_v435 : Ref sig .tc := ⟨.hbm, 621, rfl⟩

abbrev nD : Nat := 1
abbrev τ : Topo := Topo.v7x

variable {F : FTy → Type} [FloatOps F]

class Facts₀ : Prop where
  pads_S8x3x512x768_S8x3x522x778_000_000_550_550 : S8x3x512x768.Pads (![0, 0, 5, 5] : Fin 4 → Nat) ![0, 0, 5, 5] ![0, 0, 0, 0] S8x3x522x778
  h_S_ : 0 < S_.numel
  bcast_S_S8x3x512x768 : S_.BroadcastsInDim S8x3x512x768 (![] : Fin 0 → Fin S8x3x512x768.rank)
  sliceFits_S8x3x522x778_S8x3x512x768 : S8x3x522x778.Slices (fun _ => 0) S8x3x512x768

variable [Facts₀]

class Facts : Prop extends Facts₀ where

variable [Facts]
-- ==== Proof.Cell.lean ====
/-
  The stencil's mathematics at one output element, over the extended reals, in the two spellings the programs use.

  An output element at row r, column q of a plane looks at the 36 entries T(a, b) = P(r + a, q + b) of the zero-padded
  plane P, for row and column displacements a, b ∈ {10, 8, 6, 4, 2, 0} (that is 5 − dy, 5 − dx for dy, dx ∈ {−5, −3, …, 5}),
  at the target entry t and the moving entry mi at (r, q). Each displacement has the weight

      w = exp(−|T − t| · ½),

  and the element's result is the quotient of two running sums taken in the same fixed order of displacements,

      (Σ |T − mi| · w) / (Σ w),

  each sum started at zero. The kernel spells the negation as `0 − x`, the reference as `−x`; on the extended reals
  these are one value for every x (no finiteness is needed: `0 − x = 0 + (−x) = −x`), and that is the only law joining
  the two spellings. Everything else is the same operation at the same operands in the same order.
-/
import Idealize.ShloMosaic.PureOps.Ideal
import Idealize.ShloMosaic.PureOps.Ideal.Laws
import Idealize.ShloMosaic.Lib.ValueIdx
import Idealize.ShloMosaic.Lib.Pipeline.Value

noncomputable section

namespace Cert.Windows

open Idealize.ShloMosaic

/-- One displacement of the stencil into the padded plane: `a` rows down and `b` columns right of the output element's
    own position, each at most 10 (the padding is 5 on every side). -/
structure Off where
  a : ℕ
  b : ℕ
  ha : a ≤ 10
  hb : b ≤ 10

/-- The 36 displacements in the order both programs add them up: rows 10, 8, …, 0 and, within a row, columns 10, 8, …, 0. -/
def offs : List Off :=
  [
    ⟨10, 10, by omega, by omega⟩, ⟨10, 8, by omega, by omega⟩, ⟨10, 6, by omega, by omega⟩, ⟨10, 4, by omega, by omega⟩, ⟨10, 2, by omega, by omega⟩, ⟨10, 0, by omega, by omega⟩,
    ⟨8, 10, by omega, by omega⟩, ⟨8, 8, by omega, by omega⟩, ⟨8, 6, by omega, by omega⟩, ⟨8, 4, by omega, by omega⟩, ⟨8, 2, by omega, by omega⟩, ⟨8, 0, by omega, by omega⟩,
    ⟨6, 10, by omega, by omega⟩, ⟨6, 8, by omega, by omega⟩, ⟨6, 6, by omega, by omega⟩, ⟨6, 4, by omega, by omega⟩, ⟨6, 2, by omega, by omega⟩, ⟨6, 0, by omega, by omega⟩,
    ⟨4, 10, by omega, by omega⟩, ⟨4, 8, by omega, by omega⟩, ⟨4, 6, by omega, by omega⟩, ⟨4, 4, by omega, by omega⟩, ⟨4, 2, by omega, by omega⟩, ⟨4, 0, by omega, by omega⟩,
    ⟨2, 10, by omega, by omega⟩, ⟨2, 8, by omega, by omega⟩, ⟨2, 6, by omega, by omega⟩, ⟨2, 4, by omega, by omega⟩, ⟨2, 2, by omega, by omega⟩, ⟨2, 0, by omega, by omega⟩,
    ⟨0, 10, by omega, by omega⟩, ⟨0, 8, by omega, by omega⟩, ⟨0, 6, by omega, by omega⟩, ⟨0, 4, by omega, by omega⟩, ⟨0, 2, by omega, by omega⟩, ⟨0, 0, by omega, by omega⟩ ]

/-- The zero both running sums start from, as the kernel spells it (the zero word of the format). -/
abbrev zeroK : Ideal .f32 := Scalar.ofBits .f32 0x00000000#32

/-- The weight of one displacement in the kernel's spelling: `exp((0 − |s − t|) · ½)`. -/
def wK (s t : Ideal .f32) : Ideal .f32 :=
  FloatOps.exp (FloatOps.mulf (FloatOps.subf zeroK (FloatOps.absf (FloatOps.subf s t))) (Scalar.ofBits .f32 0x3F000000#32))

/-- The weight of one displacement in the reference's spelling: `exp((−|s − t|) · ½)`, with the host's operations. -/
def wR (s t : Ideal .f32) : Ideal .f32 :=
  FloatOps.hostUnary .exp (FloatOps.mulf (FloatOps.hostNegf (FloatOps.hostAbsf (FloatOps.subf s t))) (FloatOps.ofBits .f32 0x3F000000#32))

/-- The two spellings of the weight are one extended real: `0 − x = −x`. -/
theorem wK_eq_wR (s t : Ideal .f32) : wK s t = wR s t := by
  unfold wK wR
  show Ideal.exp ((Ideal.ofBits .f32 0x00000000#32 - FloatOps.absf (s - t)) * Ideal.ofBits .f32 0x3F000000#32)
     = Ideal.exp ((-(FloatOps.absf (s - t))) * Ideal.ofBits .f32 0x3F000000#32)
  rw [Ideal.ofBits_zero_f32, sub_eq_add_neg, zero_add]

/-- One output element in the kernel's spelling, from the 36 padded entries `T`, the target entry and the moving entry. -/
def cellK (T : Off → Ideal .f32) (t mi : Ideal .f32) : Ideal .f32 :=
  FloatOps.divf
    (offs.foldl (fun acc o => FloatOps.addf acc (FloatOps.mulf (FloatOps.absf (FloatOps.subf (T o) mi)) (wK (T o) t))) zeroK)
    (offs.foldl (fun acc o => FloatOps.addf acc (wK (T o) t)) zeroK)

/-- One output element in the reference's spelling. -/
def cellR (T : Off → Ideal .f32) (t mi : Ideal .f32) : Ideal .f32 :=
  FloatOps.hostDivf
    (offs.foldl (fun acc o => FloatOps.addf acc (FloatOps.mulf (FloatOps.hostAbsf (FloatOps.subf (T o) mi)) (wR (T o) t)))
      (FloatOps.ofBits .f32 0x00000000#32))
    (offs.foldl (fun acc o => FloatOps.addf acc (wR (T o) t)) (FloatOps.ofBits .f32 0x00000000#32))

/-- The two spellings of an output element are one extended real. -/
theorem cellK_eq_cellR (T : Off → Ideal .f32) (t mi : Ideal .f32) : cellK T t mi = cellR T t mi := by
  unfold cellK cellR
  simp only [wK_eq_wR]
  rfl

/-- The shape of the two arguments and of the result, and the shape of the zero-padded target. -/
abbrev SArr : Shape := ⟨4, ![8, 3, 512, 768]⟩
abbrev SPad : Shape := ⟨4, ![8, 3, 522, 778]⟩

/-- The entry of the padded array that displacement `o` shows to the result's element `i`: the same plane, `o.a` rows
    down and `o.b` columns right. -/
def shift (i : SArr.Idx) (o : Off) : SPad.Idx :=
  ValueIdx.ix4 (i 0 : Fin 8) (i 1 : Fin 3)
    (⟨(i 2).val + o.a, by have h : (i 2).val < 512 := (i 2).isLt; have := o.ha; omega⟩ : Fin 522)
    (⟨(i 3).val + o.b, by have h : (i 3).val < 768 := (i 3).isLt; have := o.hb; omega⟩ : Fin 778)

/-- THE RESULT as one function of the padded target `tp`, the target `tg` and the moving array `mi`, element by element,
    in the kernel's spelling … -/
def resultK (tp : SPad.Idx → Ideal .f32) (tg mi : SArr.Idx → Ideal .f32) : SArr.Idx → Ideal .f32 :=
  fun i => cellK (fun o => tp (shift i o)) (tg i) (mi i)

/-- … and in the reference's. -/
def resultR (tp : SPad.Idx → Ideal .f32) (tg mi : SArr.Idx → Ideal .f32) : SArr.Idx → Ideal .f32 :=
  fun i => cellR (fun o => tp (shift i o)) (tg i) (mi i)

/-- One array. -/
theorem resultK_eq_resultR (tp : SPad.Idx → Ideal .f32) (tg mi : SArr.Idx → Ideal .f32) :
    resultK tp tg mi = resultR tp tg mi :=
  funext fun _ => cellK_eq_cellR _ _ _

end Cert.Windows

end
-- ==== Proof.LibPlaneCasts.lean ====
/-
  General lemmas for kernels that work on one [A, B] plane of a rank-4 array at a time.

  * `cast_add11` / `cast_drop11`: a reshape between [A, B] and [1, 1, A, B] read at an index — entry (p, q) of the one is
    entry (0, 0, p, q) of the other (the two unit axes contribute nothing to the row-major position).
  * `foldl_addf_apply`: a running sum of arrays (a left fold of `addf` over any list, from any starting array), read at an
    index, is the running sum of the entries at that index — at the ideal values, where `addf` is entrywise `+`.
-/
import Idealize.ShloMosaic.PureOps.Ideal
import Idealize.ShloMosaic.Lib.ValueIdx
import Idealize.ShloMosaic.Lib.Pipeline.Value

noncomputable section

namespace Cert.Lib.PlaneCasts

open Idealize.ShloMosaic Idealize.ShloMosaic.ValueIdx

/-- Adding two leading unit axes to an [A, B] array: the entry at (0, 0, p, q) is the entry at (p, q). -/
theorem cast_add11 {α : Type} {A B : ℕ} (v : (⟨2, ![A, B]⟩ : Shape).Idx → α)
    (h : (⟨2, ![A, B]⟩ : Shape).ShapeCasts ⟨4, ![1, 1, A, B]⟩) (x : (⟨4, ![1, 1, A, B]⟩ : Shape).Idx) :
    shapeCast ⟨4, ![1, 1, A, B]⟩ v h x = v (ix2 (x 2) (x 3)) := by
  refine shapeCast_apply v h x _ ?_
  have h0 : (x 0).val < 1 := (x 0).isLt
  have h1 : (x 1).val < 1 := (x 1).isLt
  rw [Shape.rowMajor_val_two, Shape.rowMajor_val_four]
  have h0' : (x 0).val = 0 := by omega
  have h1' : (x 1).val = 0 := by omega
  show (x 2).val * B + (x 3).val = (((x 0).val * 1 + (x 1).val) * A + (x 2).val) * B + (x 3).val
  rw [h0', h1']; simp

/-- Dropping two leading unit axes of a [1, 1, A, B] array: the entry at (p, q) is the entry at (0, 0, p, q). -/
theorem cast_drop11 {α : Type} {A B : ℕ} (w : (⟨4, ![1, 1, A, B]⟩ : Shape).Idx → α)
    (h : (⟨4, ![1, 1, A, B]⟩ : Shape).ShapeCasts ⟨2, ![A, B]⟩) (j : (⟨2, ![A, B]⟩ : Shape).Idx) :
    shapeCast ⟨2, ![A, B]⟩ w h j = w (ix4 (0 : Fin 1) (0 : Fin 1) (j 0) (j 1)) := by
  refine shapeCast_apply w h j _ ?_
  rw [Shape.rowMajor_val_two, Shape.rowMajor_val_four]
  show (((0 : ℕ) * 1 + 0) * A + (j 0).val) * B + (j 1).val = (j 0).val * B + (j 1).val
  simp

/-- A running sum of arrays, read at an index, is the running sum of the entries at that index. -/
theorem foldl_addf_apply {α : Type} {S : Shape} (g : α → FVec Ideal S .f32) (L : List α) (z : FVec Ideal S .f32) (j : S.Idx) :
    (L.foldl (fun acc o => addf acc (g o)) z) j = L.foldl (fun a o => FloatOps.addf a (g o j)) (z j) := by
  induction L generalizing z with
  | nil => rfl
  | cons o L ih => simp only [List.foldl_cons]; rw [ih]; rfl

end Cert.Lib.PlaneCasts

end
-- ==== Proof.Strip.lean ====
/-
  One trip of the kernel's strip loop, as a value.

  The body walks a plane of 512 rows in eight strips of 64 rows. Trip k loads 74 rows of the zero-padded plane from row
  64·k (the strip's own 64 rows and the ten rows of padding and neighbours the displacements reach), and 64 rows each of
  the target and the moving plane from row 64·k; for each of the 36 displacements it cuts the 64 × 768 window out of the
  padded strip, forms the weight exp((0 − |window − target|)·½) and adds |window − moving|·weight and the weight to two
  running sums that start at the zero splat; it stores the quotient of the two sums at the strip's rows.

  `stripOut` states that stored value as a function of the three loaded strips; `trip_piece` reads it off the run the
  frame certificate found (the one place where that run's definition is opened); `stripOut_apply` reads it at an entry.
-/
import proofs.«160967_j77111842832477_2_alg».proof.Proof.Gen.KernelIdeal.Frame
import proofs.«160967_j77111842832477_2_alg».proof.Proof.Cell
import proofs.«160967_j77111842832477_2_alg».proof.Proof.LibPlaneCasts

set_option maxRecDepth 16384

noncomputable section

namespace Cert.KernelIdeal.Strip

open Cert.KernelIdeal Cert.KernelIdeal.Gen Cert.Windows Cert.Lib.PlaneCasts
open Idealize.ShloMosaic Idealize.ShloMosaic.TcCoe Idealize.SL.Sem

variable {F : FTy → Type} [FloatOps F]

/-- A displacement of at most 10 rows and 10 columns keeps a 64 × 768 window inside the 74 × 778 strip of the padded plane. -/
theorem slices_ok (o : Off) : S74x778.Slices ![o.a, o.b] S64x768 :=
  ⟨rfl, fun x => by
    have ha := o.ha; have hb := o.hb
    match x with
    | ⟨0, _⟩ => show o.a + 64 ≤ 74; omega
    | ⟨1, _⟩ => show o.b + 768 ≤ 778; omega⟩

/-- The 64 × 768 window of the strip `v5` of the padded plane at displacement `o`. -/
def sl (v5 : FVec F S74x778 .f32) (o : Off) : FVec F S64x768 .f32 :=
  extractStridedSlice S64x768 ![o.a, o.b] v5 (slices_ok o)

/-- The weights of one displacement over a strip: `exp((0 − |window − target|) · ½)`, entry by entry. -/
def stripW (v5 : FVec F S74x778 .f32) (v8 : FVec F S64x768 .f32) (o : Off) : FVec F S64x768 .f32 :=
  exp (mulf (subf (broadcast S64x768 (Scalar.ofBits .f32 0x00000000#32)) (absf (subf (sl v5 o) v8)))
    (broadcast S64x768 (Scalar.ofBits .f32 0x3F000000#32)))

/-- What one trip of the strip loop stores, as a function of the three strips it loads: the quotient of the two running
    sums over the 36 displacements, each started at the zero splat and taken in the fixed order `offs`. -/
def stripOut (v5 : FVec F S74x778 .f32) (v8 v11 : FVec F S64x768 .f32) : FVec F S64x768 .f32 :=
  divf
    (offs.foldl (fun acc o => addf acc (mulf (absf (subf (sl v5 o) v11)) (stripW v5 v8 o))) (broadcast S64x768 (Scalar.ofBits .f32 0x00000000#32)))
    (offs.foldl (fun acc o => addf acc (stripW v5 v8 o)) (broadcast S64x768 (Scalar.ofBits .f32 0x00000000#32)))

/-- ONE TRIP'S ONE PIECE. Trip `k` of the strip loop writes a single piece into the output's staging buffer: at the rows
    `64·k … 64·k + 63` (the rectangle at `k0_off2 k`), the value `stripOut` of the three strips the trip loads — 74 rows of
    the padded plane from row `64·k`, and 64 rows each of the target and the moving plane from row `64·k`. The body's
    printed arithmetic is, operation by operation, the two running sums of `stripOut`: this is its text unfolded. -/
theorem trip_piece (𝒱 : Variants) (c : Dev nD) (bd : Option 𝒱.V) (i : grid0.Coords) (arg2 : Memref sig .tc .vmem S1x1x522x778 .f32) (harg2 : arg2.IsWhole) (arg3 : Memref sig .tc .vmem S1x1x512x768 .f32) (harg3 : arg3.IsWhole) (arg4 : Memref sig .tc .vmem S1x1x512x768 .f32) (harg4 : arg4.IsWhole) (arg5 : Memref sig .tc .vmem S1x1x512x768 .f32) (harg5 : arg5.IsWhole) (X_arg2 : BufTy.Contents (Elt F) arg2.view.ty) (X_arg3 : BufTy.Contents (Elt F) arg3.view.ty) (X_arg4 : BufTy.Contents (Elt F) arg4.view.ty) (k : Fin k0_t1_loop.trips) :
    tripL_k0_t1 (F := F) 𝒱 c bd i arg2 harg2 arg3 harg3 arg4 harg4 arg5 harg5 X_arg2 X_arg3 X_arg4 k
      = [⟨Rect.unit (s := S1x1x512x768) (k0_off2 k) S1x1x64x768.size (k0_off2_inb k),
          shapeCast S1x1x64x768 (stripOut
            (shapeCast S74x778 (View.readAt (Elt F) arg2.view (Rect.unit (s := S1x1x522x778) (k0_off1 k) S1x1x74x778.size (k0_off1_inb k)).toLoadRect X_arg2) shapeCasts_S1x1x74x778_S74x778)
            (shapeCast S64x768 (View.readAt (Elt F) arg3.view (Rect.unit (s := S1x1x512x768) (k0_off2 k) S1x1x64x768.size (k0_off2_inb k)).toLoadRect X_arg3) shapeCasts_S1x1x64x768_S64x768)
            (shapeCast S64x768 (View.readAt (Elt F) arg4.view (Rect.unit (s := S1x1x512x768) (k0_off2 k) S1x1x64x768.size (k0_off2_inb k)).toLoadRect X_arg4) shapeCasts_S1x1x64x768_S64x768))
            shapeCasts_S64x768_S1x1x64x768⟩] := by
  unfold tripL_k0_t1 trip_k0_t1
  rfl

/-- The stored strip at an entry of the strip is the stencil's cell of the 36 displaced entries of the padded strip and
    the target and moving entries there (the kernel's spelling). -/
theorem stripOut_apply (v5 : FVec Ideal S74x778 .f32) (v8 v11 : FVec Ideal S64x768 .f32) (j : S64x768.Idx) :
    stripOut v5 v8 v11 j = cellK (fun o => sl v5 o j) (v8 j) (v11 j) := by
  simp only [stripOut, Idealize.ShloMosaic.divf]
  rw [foldl_addf_apply, foldl_addf_apply]
  rfl

end Cert.KernelIdeal.Strip

end
-- ==== Proof.Block.lean ====
/-
  One plane of the result as a function of the three planes the body is given.

  At a grid point the body finds one plane of the zero-padded target (522 × 778), of the target and of the moving array
  (512 × 768 each), and leaves one plane of the result. `Gblk` is that plane, element by element: the stencil's cell of
  the 36 displaced entries of the padded plane and the target and moving entries at the element.

  `piece_eq`: trip k's stored strip is `Gblk` on the rows 64·k … 64·k + 63 (the strip's entry (p, q) sees the padded
  entries (64·k + p + a, q + b)). `mem_pb`: the run's pieces are the eight trips' pieces. `out_eq`: so, the pieces
  tiling the plane, what the body leaves is `Gblk`.
-/
import proofs.«160967_j77111842832477_2_alg».proof.Proof.Strip

set_option maxRecDepth 16384

noncomputable section

namespace Cert.KernelIdeal.Block

open Cert.KernelIdeal Cert.KernelIdeal.Gen Cert.Windows Cert.KernelIdeal.Strip Cert.Lib.PlaneCasts
open Idealize.ShloMosaic Idealize.ShloMosaic.TcCoe Idealize.SL.Sem Idealize.ShloMosaic.ValueIdx

/-- The entry of a padded plane that displacement `o` shows to the output element at `y` of the plane:
    `o.a` rows down and `o.b` columns right of `y`'s own row and column. -/
def pidx (y : S1x1x512x768.Idx) (o : Off) : S1x1x522x778.Idx :=
  ix4 (0 : Fin 1) (0 : Fin 1)
    (⟨(y 2).val + o.a, by have h : (y 2).val < 512 := (y 2).isLt; have := o.ha; omega⟩ : Fin 522)
    (⟨(y 3).val + o.b, by have h : (y 3).val < 768 := (y 3).isLt; have := o.hb; omega⟩ : Fin 778)

/-- One plane of the result as a function of the three planes the body is given — the padded plane, the target plane
    and the moving plane —, element by element: the stencil's cell of the 36 displaced padded entries. -/
def Gblk (x0 : Vec Ideal S1x1x522x778 .f32) (x1 x2 : Vec Ideal S1x1x512x768 .f32) : Vec Ideal S1x1x512x768 .f32 :=
  fun y => cellK (fun o => x0 (pidx y o)) (x1 y) (x2 y)

/-- A load of a whole staging buffer's rectangle reads the buffer's contents at the rectangle's indices. -/
theorem load_unread {S : Shape} (M : Memref sig .tc .vmem S .f32) (hM : M.IsWhole) (X : Vec Ideal S .f32) (r : LoadRect S)
    (z : r.shape.Idx) : View.readAt (Elt Ideal) M.view r (hM.unread X) z = X (r.idx z) := by
  rw [View.readAt_apply, hM.read_unread]

/-- TRIP `k`'S PIECE IS `Gblk` ON ITS ROWS. The trip stores, at the rows `64·k … 64·k + 63` of the plane, the strip value
    `stripOut` of 74 rows of the padded plane and 64 rows of the target and moving planes, all from row `64·k`: entry
    `(p, q)` of that strip is the cell of the padded entries `(64·k + p + a, q + b)` and the target and moving entries
    `(64·k + p, q)` — which is `Gblk` at the plane's entry `(64·k + p, q)`, the entry the piece's rectangle sends `(p, q)` to. -/
theorem piece_eq (k : Fin k0_t1_loop.trips) (arg2 : Memref sig .tc .vmem S1x1x522x778 .f32) (harg2 : arg2.IsWhole) (arg3 : Memref sig .tc .vmem S1x1x512x768 .f32) (harg3 : arg3.IsWhole) (arg4 : Memref sig .tc .vmem S1x1x512x768 .f32) (harg4 : arg4.IsWhole)
    (x0 : Vec Ideal S1x1x522x778 .f32) (x1 x2 : Vec Ideal S1x1x512x768 .f32) (x : S1x1x64x768.Idx) :
    shapeCast S1x1x64x768 (stripOut (F := Ideal) (shapeCast S74x778 (View.readAt (Elt Ideal) arg2.view (Rect.unit (s := S1x1x522x778) (k0_off1 k) S1x1x74x778.size (k0_off1_inb k)).toLoadRect (harg2.unread x0)) shapeCasts_S1x1x74x778_S74x778)
        (shapeCast S64x768 (View.readAt (Elt Ideal) arg3.view (Rect.unit (s := S1x1x512x768) (k0_off2 k) S1x1x64x768.size (k0_off2_inb k)).toLoadRect (harg3.unread x1)) shapeCasts_S1x1x64x768_S64x768)
        (shapeCast S64x768 (View.readAt (Elt Ideal) arg4.view (Rect.unit (s := S1x1x512x768) (k0_off2 k) S1x1x64x768.size (k0_off2_inb k)).toLoadRect (harg4.unread x2)) shapeCasts_S1x1x64x768_S64x768)) shapeCasts_S64x768_S1x1x64x768 x
      = Gblk x0 x1 x2 ((Rect.unit (s := S1x1x512x768) (k0_off2 k) S1x1x64x768.size (k0_off2_inb k)).emb x) := by
  have e1 : k0_off1 k = ![0, 0, 64 * k.val, 0] := k0_off1_eq k
  have e2 : k0_off2 k = ![0, 0, 64 * k.val, 0] := k0_off2_eq k
  have e10 : k0_off1 k 0 = 0 := congrFun e1 0
  have e11 : k0_off1 k 1 = 0 := congrFun e1 1
  have e12 : k0_off1 k 2 = 64 * k.val := congrFun e1 2
  have e13 : k0_off1 k 3 = 0 := congrFun e1 3
  have e20 : k0_off2 k 0 = 0 := congrFun e2 0
  have e21 : k0_off2 k 1 = 0 := congrFun e2 1
  have e22 : k0_off2 k 2 = 64 * k.val := congrFun e2 2
  have e23 : k0_off2 k 3 = 0 := congrFun e2 3
  have hx0 : (x 0).val < 1 := (x 0).isLt
  have hx1 : (x 1).val < 1 := (x 1).isLt
  have hx2 : (x 2).val < 64 := (x 2).isLt
  have hx3 : (x 3).val < 768 := (x 3).isLt
  rw [cast_add11, stripOut_apply]
  unfold Gblk
  -- the target and moving entries: the strip's entry (p, q) is the plane's entry (64·k + p, q)
  have hrow : ∀ (M : Memref sig .tc .vmem S1x1x512x768 .f32) (hM : M.IsWhole) (X : Vec Ideal S1x1x512x768 .f32),
      shapeCast S64x768 (View.readAt (Elt Ideal) M.view (Rect.unit (s := S1x1x512x768) (k0_off2 k) S1x1x64x768.size (k0_off2_inb k)).toLoadRect (hM.unread X)) shapeCasts_S1x1x64x768_S64x768 (ix2 (x 2) (x 3))
        = X ((Rect.unit (s := S1x1x512x768) (k0_off2 k) S1x1x64x768.size (k0_off2_inb k)).emb x) := by
    intro M hM X
    rw [cast_drop11, load_unread]
    refine congrArg X (funext fun a => Fin.ext ?_)
    match a with
    | ⟨0, _⟩ => show k0_off2 k 0 + 1 * 0 = k0_off2 k 0 + 1 * (x 0).val; omega
    | ⟨1, _⟩ => show k0_off2 k 1 + 1 * 0 = k0_off2 k 1 + 1 * (x 1).val; omega
    | ⟨2, _⟩ => rfl
    | ⟨3, _⟩ => rfl
  -- the 36 displaced entries of the padded plane
  have hT : (fun o => sl (F := Ideal) (shapeCast S74x778 (View.readAt (Elt Ideal) arg2.view (Rect.unit (s := S1x1x522x778) (k0_off1 k) S1x1x74x778.size (k0_off1_inb k)).toLoadRect (harg2.unread x0)) shapeCasts_S1x1x74x778_S74x778) o (ix2 (x 2) (x 3))) = fun o => x0 (pidx ((Rect.unit (s := S1x1x512x768) (k0_off2 k) S1x1x64x768.size (k0_off2_inb k)).emb x) o) := by
    funext o
    have ha := o.ha
    have hb := o.hb
    unfold sl
    rw [extractStridedSlice_apply (t := S64x768) ![o.a, o.b] _ (slices_ok o) (ix2 (n0 := 64) (n1 := 768) (x 2) (x 3))
      (ix2 (⟨o.a + (x 2).val, by omega⟩ : Fin 74) (⟨o.b + (x 3).val, by omega⟩ : Fin 778))
      (fun a => by match a with | ⟨0, _⟩ => rfl | ⟨1, _⟩ => rfl)]
    rw [cast_drop11, load_unread]
    refine congrArg x0 (funext fun a => Fin.ext ?_)
    match a with
    | ⟨0, _⟩ => show k0_off1 k 0 + 1 * 0 = 0; omega
    | ⟨1, _⟩ => show k0_off1 k 1 + 1 * 0 = 0; omega
    | ⟨2, _⟩ => show k0_off1 k 2 + 1 * (o.a + (x 2).val) = (k0_off2 k 2 + 1 * (x 2).val) + o.a; omega
    | ⟨3, _⟩ => show k0_off1 k 3 + 1 * (o.b + (x 3).val) = (k0_off2 k 3 + 1 * (x 3).val) + o.b; omega
  rw [hT, hrow arg3 harg3 x1, hrow arg4 harg4 x2]

variable {F : FTy → Type} [FloatOps F]

/-- The pieces of the trips before `n` are, each, a piece of one of those trips. -/
theorem mem_pb (𝒱 : Variants) (c : Dev nD) (bd : Option 𝒱.V) (i : grid0.Coords) (arg2 : Memref sig .tc .vmem S1x1x522x778 .f32) (harg2 : arg2.IsWhole) (arg3 : Memref sig .tc .vmem S1x1x512x768 .f32) (harg3 : arg3.IsWhole) (arg4 : Memref sig .tc .vmem S1x1x512x768 .f32) (harg4 : arg4.IsWhole) (arg5 : Memref sig .tc .vmem S1x1x512x768 .f32) (harg5 : arg5.IsWhole)
    (X_arg2 : BufTy.Contents (Elt F) arg2.view.ty) (X_arg3 : BufTy.Contents (Elt F) arg3.view.ty) (X_arg4 : BufTy.Contents (Elt F) arg4.view.ty) :
    ∀ (n : ℕ), n ≤ k0_t1_loop.trips → ∀ p ∈ pb_k0_t1 (F := F) 𝒱 c bd i arg2 harg2 arg3 harg3 arg4 harg4 arg5 harg5 X_arg2 X_arg3 X_arg4 n,
      ∃ k : Fin k0_t1_loop.trips, p ∈ tripL_k0_t1 (F := F) 𝒱 c bd i arg2 harg2 arg3 harg3 arg4 harg4 arg5 harg5 X_arg2 X_arg3 X_arg4 k
  | 0, _, p, hp => by rw [pb_k0_t1.eq_1] at hp; exact absurd hp List.not_mem_nil
  | n + 1, hn, p, hp => by
    have hs := pb_k0_t1_succ (F := F) 𝒱 c bd i arg2 harg2 arg3 harg3 arg4 harg4 arg5 harg5 X_arg2 X_arg3 X_arg4 ⟨n, hn⟩
    rw [show (⟨n, hn⟩ : Fin k0_t1_loop.trips).val + 1 = n + 1 from rfl] at hs
    rw [hs] at hp
    rcases List.mem_append.mp hp with h | h
    · exact ⟨⟨n, hn⟩, h⟩
    · exact mem_pb 𝒱 c bd i arg2 harg2 arg3 harg3 arg4 harg4 arg5 harg5 X_arg2 X_arg3 X_arg4 n (Nat.le_of_succ_le hn) p h

/-- WHAT THE BODY LEAVES IN THE OUTPUT'S STAGING BUFFER at any grid point: `Gblk` of the three planes it was given. The
    eight trips' pieces tile the plane (the generated cover), and each is `Gblk` on its rows (`piece_eq`). -/
theorem out_eq (c : Dev nD) (i : grid0.Coords) (arg2 : Memref sig .tc .vmem S1x1x522x778 .f32) (harg2 : arg2.IsWhole) (arg3 : Memref sig .tc .vmem S1x1x512x768 .f32) (harg3 : arg3.IsWhole) (arg4 : Memref sig .tc .vmem S1x1x512x768 .f32) (harg4 : arg4.IsWhole) (arg5 : Memref sig .tc .vmem S1x1x512x768 .f32) (harg5 : arg5.IsWhole)
    (x0 : Vec Ideal S1x1x522x778 .f32) (x1 x2 : Vec Ideal S1x1x512x768 .f32) :
    out0_A_3 (F := Ideal) c i arg2 harg2 arg3 harg3 arg4 harg4 arg5 harg5 x0 x1 x2 = Gblk x0 x1 x2 := by
  funext y
  unfold out0_A_3
  refine View.read_writes_apply_of_pieces _ _ (Gblk x0 x1 x2) _ ?_ y (cover0_A_3 c i arg2 harg2 arg3 harg3 arg4 harg4 arg5 harg5 x0 x1 x2 y)
  intro p hp xx
  have hL : (kernelRun0_A (F := Ideal) c i arg2 harg2 arg3 harg3 arg4 harg4 arg5 harg5 x0 x1 x2).1
      = pb_k0_t1 (F := Ideal) Variants.none c none i arg2 harg2 arg3 harg3 arg4 harg4 arg5 harg5 (harg2.unread x0) (harg3.unread x1) (harg4.unread x2) k0_t1_loop.trips := by
    unfold kernelRun0_A; rfl
  rw [hL] at hp
  obtain ⟨k, hk⟩ := mem_pb Variants.none c none i arg2 harg2 arg3 harg3 arg4 harg4 arg5 harg5 (harg2.unread x0) (harg3.unread x1) (harg4.unread x2) _ (Nat.le_refl _) p hp
  rw [trip_piece] at hk
  obtain rfl := List.mem_singleton.mp hk
  exact piece_eq k arg2 harg2 arg3 harg3 arg4 harg4 x0 x1 x2 xx

end Cert.KernelIdeal.Block

end
-- ==== Proof.KernelArray.lean ====
/-
  The kernel's result array as one function of its arguments.

  The launch runs the body once per plane, at the 8 × 3 grid points (b, c); every window's block at (b, c) is plane (b, c)
  of its array — the zero-padded target (padded on the host before the launch), the target, the moving array, the result.
  What point (b, c) writes back is `Gblk` of the three input planes, that is, plane (b, c) of `resultK` of the three
  arrays: an input plane's entry is the array's entry at the plane's position, and the padded plane's entry `a` rows
  down and `b` columns right is the padded array's entry so displaced. The 24 planes cover the result, so the array
  after the run is `resultK` of the padded target, the target and the moving array.
-/
import proofs.«160967_j77111842832477_2_alg».proof.Proof.Gen.KernelIdeal.Value
import proofs.«160967_j77111842832477_2_alg».proof.Proof.Block
import Idealize.ShloMosaic.Lib.StableHlo.Run

set_option maxRecDepth 16384

noncomputable section

namespace Cert.KernelIdeal.Arr

open Cert.KernelIdeal Cert.KernelIdeal.Gen Cert.KernelIdeal.Value Cert.Windows Cert.KernelIdeal.Strip Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided once over the 24 grid points: every window's block at point (b, c) is plane (b, c) —
    block indices (b, c, 0, 0), the same for the padded target, the target, the moving array and the result. -/
theorem idx_facts : ∀ t : Fin cfg0.N,
    win0_0.index t (0 : Fin 4) = win0_3.index t (0 : Fin 4)
    ∧ win0_0.index t (1 : Fin 4) = win0_3.index t (1 : Fin 4)
    ∧ win0_0.index t (2 : Fin 4) = 0
    ∧ win0_0.index t (3 : Fin 4) = 0
    ∧ win0_1.index t (0 : Fin 4) = win0_3.index t (0 : Fin 4)
    ∧ win0_1.index t (1 : Fin 4) = win0_3.index t (1 : Fin 4)
    ∧ win0_1.index t (2 : Fin 4) = 0
    ∧ win0_1.index t (3 : Fin 4) = 0
    ∧ win0_2.index t (0 : Fin 4) = win0_3.index t (0 : Fin 4)
    ∧ win0_2.index t (1 : Fin 4) = win0_3.index t (1 : Fin 4)
    ∧ win0_2.index t (2 : Fin 4) = 0
    ∧ win0_2.index t (3 : Fin 4) = 0
    ∧ win0_3.index t (2 : Fin 4) = 0
    ∧ win0_3.index t (3 : Fin 4) = 0
    ∧ win0_3.index t (0 : Fin 4) ≤ 7
    ∧ win0_3.index t (1 : Fin 4) ≤ 2 :=
  (by decide +kernel : ∀ t : Fin grid0.N, _)

/-- Every plane of the result is some grid point's block. -/
theorem idx_onto : ∀ (q0 : Fin 8) (q1 : Fin 3), ∃ t : Fin cfg0.N, win0_3.index t = ![q0.val, q1.val, 0, 0] :=
  (by decide +kernel : ∀ (q0 : Fin 8) (q1 : Fin 3), ∃ t : Fin grid0.N, win0_3.index t = ![q0.val, q1.val, 0, 0])

/-- WHAT POINT `t` WRITES BACK is plane `t` of the result function of the arrays as the launch finds them: the body's
    output block is `Gblk` of its three input blocks (`out_eq`), an input block's entry is the array's entry at the
    block's position, and a displaced entry of the padded block is the displaced entry of the padded array. -/
theorem flushed_eq (c : Dev nD) (t : Fin cfg0.N) :
    (dats m 0 c).flushed 3 t
      = ((cfg0.win 3).blk t).view.read (Elt Ideal) (resultK (V m c main_v0) (V m c main_arg1) (V m c main_arg0)) := by
  rw [flushed3_A]
  have ho := out_eq c (grid0.coords t) (ms0_0 t) (hs0_0 t) (ms0_1 t) (hs0_1 t) (ms0_2 t) (hs0_2 t) (ms0_3 t) (hs0_3 t)
    (iblk m c 0 t) (iblk m c 1 t) (iblk m c 2 t)
  rw [ho]
  obtain ⟨f0, f1, f2, f3, f4, f5, f6, f7, f8, f9, f10, f11, f12, f13, f14, f15⟩ := idx_facts t
  funext y
  have hy0 : (y 0).val < 1 := (y 0).isLt
  have hy1 : (y 1).val < 1 := (y 1).isLt
  have hy2 : (y 2).val < 512 := (y 2).isLt
  have hy3 : (y 3).val < 768 := (y 3).isLt
  show cellK (fun o => V m c main_v0 (((cfg0.win 0).blk t).view.emb (pidx y o)))
        (V m c main_arg1 (((cfg0.win 1).blk t).view.emb y)) (V m c main_arg0 (((cfg0.win 2).blk t).view.emb y))
     = cellK (fun o => V m c main_v0 (shift (((cfg0.win 3).blk t).view.emb y) o))
        (V m c main_arg1 (((cfg0.win 3).blk t).view.emb y)) (V m c main_arg0 (((cfg0.win 3).blk t).view.emb y))
  have h1 : ((cfg0.win 1).blk t).view.emb y = ((cfg0.win 3).blk t).view.emb y := by
    funext a; apply Fin.ext
    match a with
    | ⟨0, _⟩ => show win0_1.index t (0 : Fin 4) * 1 + 1 * (y 0).val = win0_3.index t (0 : Fin 4) * 1 + 1 * (y 0).val; omega
    | ⟨1, _⟩ => show win0_1.index t (1 : Fin 4) * 1 + 1 * (y 1).val = win0_3.index t (1 : Fin 4) * 1 + 1 * (y 1).val; omega
    | ⟨2, _⟩ => show win0_1.index t (2 : Fin 4) * 512 + 1 * (y 2).val = win0_3.index t (2 : Fin 4) * 512 + 1 * (y 2).val; omega
    | ⟨3, _⟩ => show win0_1.index t (3 : Fin 4) * 768 + 1 * (y 3).val = win0_3.index t (3 : Fin 4) * 768 + 1 * (y 3).val; omega
  have h2 : ((cfg0.win 2).blk t).view.emb y = ((cfg0.win 3).blk t).view.emb y := by
    funext a; apply Fin.ext
    match a with
    | ⟨0, _⟩ => show win0_2.index t (0 : Fin 4) * 1 + 1 * (y 0).val = win0_3.index t (0 : Fin 4) * 1 + 1 * (y 0).val; omega
    | ⟨1, _⟩ => show win0_2.index t (1 : Fin 4) * 1 + 1 * (y 1).val = win0_3.index t (1 : Fin 4) * 1 + 1 * (y 1).val; omega
    | ⟨2, _⟩ => show win0_2.index t (2 : Fin 4) * 512 + 1 * (y 2).val = win0_3.index t (2 : Fin 4) * 512 + 1 * (y 2).val; omega
    | ⟨3, _⟩ => show win0_2.index t (3 : Fin 4) * 768 + 1 * (y 3).val = win0_3.index t (3 : Fin 4) * 768 + 1 * (y 3).val; omega
  have h0 : ∀ o : Off, ((cfg0.win 0).blk t).view.emb (pidx y o) = shift (((cfg0.win 3).blk t).view.emb y) o := by
    intro o; funext a; apply Fin.ext
    match a with
    | ⟨0, _⟩ => show win0_0.index t (0 : Fin 4) * 1 + 1 * 0 = win0_3.index t (0 : Fin 4) * 1 + 1 * (y 0).val; omega
    | ⟨1, _⟩ => show win0_0.index t (1 : Fin 4) * 1 + 1 * 0 = win0_3.index t (1 : Fin 4) * 1 + 1 * (y 1).val; omega
    | ⟨2, _⟩ => show win0_0.index t (2 : Fin 4) * 522 + 1 * ((y 2).val + o.a) = (win0_3.index t (2 : Fin 4) * 512 + 1 * (y 2).val) + o.a; omega
    | ⟨3, _⟩ => show win0_0.index t (3 : Fin 4) * 778 + 1 * ((y 3).val + o.b) = (win0_3.index t (3 : Fin 4) * 768 + 1 * (y 3).val) + o.b; omega
  simp only [h0, h1, h2]

/-- An index of the result is in point `t`'s block iff each coordinate is in the block's range on its axis. -/
theorem mem_blk (t : Fin cfg0.N) (i : S8x3x512x768.Idx) :
    i ∈ ((cfg0.win 3).blk t).view.set ↔ ∀ a : Fin 4, win0_3.index t a * S1x1x512x768.size a ≤ (i a).val ∧ (i a).val < win0_3.index t a * S1x1x512x768.size a + S1x1x512x768.size a := by
  show i ∈ ((View.whole main_v1).slice (win0_3.rect t)).set ↔ _
  rw [View.set_slice_whole, Rect.mem_set_unit]
  exact Iff.rfl

/-- The 24 planes cover the result: element (b, c, r, q) is in the block of the point whose block index is (b, c, 0, 0). -/
theorem cover (i : S8x3x512x768.Idx) : ∃ t : Fin cfg0.N, (cfg0.win 3).flush t = true ∧ i ∈ ((cfg0.win 3).blk t).view.set := by
  have hi0 : (i 0).val < 8 := (i 0).isLt
  have hi1 : (i 1).val < 3 := (i 1).isLt
  have hi2 : (i 2).val < 512 := (i 2).isLt
  have hi3 : (i 3).val < 768 := (i 3).isLt
  obtain ⟨t, ht⟩ := idx_onto ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 768 ≤ (i 3).val ∧ (i 3).val < win0_3.index t (3 : Fin 4) * 768 + 768; omega

/-- THE RESULT ARRAY after the run: the result function of the arrays as the launch finds them. -/
theorem final (c : Dev nD) :
    (dats m 0 c).arrAt 3 cfg0.N = resultK (V m c main_v0) (V m c main_arg1) (V m c main_arg0) :=
  (dats m 0 c).arrAt_eq_of_cover 3 _ (fun t _ => flushed_eq m c t) cover

/-- The host operations before the launch: the first window's array is the target padded by five zeros on each side of
    its last two axes (the zero an integer 0 converted to the float format). -/
theorem V_padded (c : Dev nD) :
    (V m c main_v0 : S8x3x522x778.Idx → Elt Ideal .f32)
      = pad S8x3x522x778 ![0, 0, 5, 5] ![0, 0, 5, 5] ![0, 0, 0, 0] (m ((c.tc : Thread nD τ).loc main_arg1))
          (sitofp (F := Ideal) .f32 (constantI S_ 32 0#32)) pads_S8x3x512x768_S8x3x522x778_000_000_550_550 h_S_ := by
  dsimp only [V]
  simp only [hostOps0, hostOps0_1, List.flatten_cons, List.flatten_nil, List.append_nil, List.cons_append, List.nil_append]
  after_results
  rfl

/-- THE KERNEL'S RUN, read: every weakly fair execution terminates with the result array at the result function of the
    padded target, the target and the moving array, and the two arguments unchanged. -/
theorem run : θ_run defs (onTc (τ := τ) (main (F := Ideal))) ⟨m, fun _ => 0, ρ⟩ fun r => ∀ c : Dev nD,
      r.2.mem ((c.tc : Thread nD τ).loc main_v1)
        = resultK (pad S8x3x522x778 ![0, 0, 5, 5] ![0, 0, 5, 5] ![0, 0, 0, 0] (m ((c.tc : Thread nD τ).loc main_arg1))
            (sitofp (F := Ideal) .f32 (constantI S_ 32 0#32)) pads_S8x3x512x768_S8x3x522x778_000_000_550_550 h_S_)
            (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨by
      rw [(h c).1, final m c, V_padded m c, V_main_arg1 m c, V_main_arg0 m c], (h c).2.1, (h c).2.2⟩)
    (run_blocks m ρ)

end Cert.KernelIdeal.Arr

end
-- ==== Proof.RefDefs.lean ====
/-
  The reference's result array, stated as a function of its arguments.

  The reference pads the target by five zeros on each side of its last two axes and then repeats, for each of the 36
  displacements in the same order as the kernel, one group of operations on whole arrays: the window of the padded
  target at the displacement (`refS`), the weight exp((−|window − target|)·½) (`refW`), and the two running sums, both
  started at the zero broadcast; the result is the quotient of the sums (`refOut`: two folds over the displacements).
-/
import proofs.«160967_j77111842832477_2_alg».proof.Proof.Gen.ReferenceIdeal
import proofs.«160967_j77111842832477_2_alg».proof.Proof.Cell

noncomputable section

namespace Cert.ReferenceIdeal.RefValue

open Cert.ReferenceIdeal Cert.ReferenceIdeal.Gen Cert.Windows
open Idealize.ShloMosaic Idealize.ShloMosaic.TcCoe Idealize.SL.Sem

variable {F : FTy → Type} [FloatOps F]

/-- The reference's window of the padded target at displacement `o`: a dynamic slice whose four starts are the
    constants 0, 0, `o.a`, `o.b`. -/
def refS (tp : FVec F S8x3x522x778 .f32) (o : Off) : FVec F S8x3x512x768 .f32 :=
  Host.dynamicSlice S8x3x512x768 tp (fun k => (((![constantI S_ 32 0#32, constantI S_ 32 0#32, constantI S_ 32 (BitVec.ofNat 32 o.a), constantI S_ 32 (BitVec.ofNat 32 o.b)] : Fin 4 → (⟨S_, .i32⟩ : BufTy).Contents (Elt F))) k (Shape.Idx.first h_S_)).toInt) sliceFits_S8x3x522x778_S8x3x512x768

/-- The reference's weights of one displacement: `exp((−|window − target|) · ½)`, entry by entry. -/
def refW (tp : FVec F S8x3x522x778 .f32) (tg : FVec F S8x3x512x768 .f32) (o : Off) : FVec F S8x3x512x768 .f32 :=
  Host.exp (mulf (Host.negf (Host.absf (subf (refS tp o) tg))) (broadcastInDim S8x3x512x768 ![] bcast_S_S8x3x512x768 (constant S_ .f32 0x3F000000#32)))

/-- The reference's result as a function of the padded target, the target and the moving array: the quotient of the two
    running sums over the 36 displacements, each started at the zero broadcast and taken in the fixed order `offs`. -/
def refOut (tp : FVec F S8x3x522x778 .f32) (tg mi : FVec F S8x3x512x768 .f32) : FVec F S8x3x512x768 .f32 :=
  Host.divf
    (offs.foldl (fun acc o => addf acc (mulf (Host.absf (subf (refS tp o) mi)) (refW tp tg o)))
      (broadcastInDim S8x3x512x768 ![] bcast_S_S8x3x512x768 (constant S_ .f32 0x00000000#32)))
    (offs.foldl (fun acc o => addf acc (refW tp tg o))
      (broadcastInDim S8x3x512x768 ![] bcast_S_S8x3x512x768 (constant S_ .f32 0x00000000#32)))

end Cert.ReferenceIdeal.RefValue

end
-- ==== Proof.LibIndexed4.lean ====
/-
  A general lemma for evaluating a host program's operations when one of them is indexed by four scalar buffers
  (a dynamic slice of a rank-4 array with its four starts in buffers of their own).

  The library states the result of an indexed operation with the index buffers' contents under a bound index,
  `fun k => F (ix k)`: rewriting cannot look such a buffer up. For an index vector given literally,
  `![i0, i1, i2, i3]`, the four lookups can be named one by one (`unaryIndexed4_result'`), and then one rewriting pass over
  the whole operation list evaluates every buffer (`after_results_simp4`: the library's pass with this lemma in the
  indexed operation's place).
-/
import Idealize.ShloMosaic.Lib.StableHlo.Run

noncomputable section

namespace Cert.Lib.Indexed4
open Idealize.ShloMosaic Idealize.ShloMosaic.TcCoe Idealize.SL.Sem Idealize.ShloMosaic.StableHlo

variable {τ : Topo} {sig : RefSig} {Val : EltTy → Type}

/-- The result of an operation indexed by FOUR buffers given as a literal vector, at its own result buffer: its
    function of the operand's contents and of the four index buffers' contents, each looked up by name (the general
    statement leaves them under a bound index, `fun k => F (ix k)`, where no rewriting can reach them). -/
theorem unaryIndexed4_result' {a y i0 i1 i2 i3 : Ref sig .tc} (T : BufTy)
    (f : a.ty.Contents Val → (Fin 4 → T.Contents Val) → y.ty.Contents Val) (hT ha hix hy) (F : Valuation τ sig Val) :
    (unaryIndexed (τ := τ) a ![i0, i1, i2, i3] T y f hT ha hix hy).result F (no_index (Proc.devRef .tc y))
      = f (F (Proc.devRef .tc a))
          ![cast (congrArg (fun U : BufTy => U.Contents Val) (hT 0)) (F (Proc.devRef .tc i0)),
            cast (congrArg (fun U : BufTy => U.Contents Val) (hT 1)) (F (Proc.devRef .tc i1)),
            cast (congrArg (fun U : BufTy => U.Contents Val) (hT 2)) (F (Proc.devRef .tc i2)),
            cast (congrArg (fun U : BufTy => U.Contents Val) (hT 3)) (F (Proc.devRef .tc i3))] := by
  rw [unaryIndexed_result']
  congr 1
  funext k
  fin_cases k <;> rfl

end Cert.Lib.Indexed4

namespace Idealize.ShloMosaic.StableHlo

/-- The library's one-pass evaluation of `after ops V` at a buffer, with an operation indexed by a literal 4-vector of
    buffers evaluated by `Cert.Lib.Indexed4.unaryIndexed4_result'` (every index buffer looked up by name). -/
macro "after_results_simp4" : tactic =>
  `(tactic| (simp (disch := decide) only [after_cons, after_nil,
      nullary_result', unary_result', binary_result', ternary_result', quaternary_result', reshape_result', nary4_result', nary_result',
      Cert.Lib.Indexed4.unaryIndexed4_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefEval.lean ====
/-
  The reference's run.

  @main is a straight line of 620 host operations: seven that pad the target and make the two zero arrays, then 36 groups
  of seventeen (four start constants, the window, and the weight and the two sums' next terms), then the quotient. Every
  weakly fair execution runs them in order, so it ends with each buffer at the operations' composed value of the launch
  contents (the library's `run_seq`). Evaluated at the result buffer — one pass that looks each operand buffer up at the
  operation that wrote it, the four start buffers of each window by name — that value is, group by group, the two
  running sums of `refOut`; at an argument buffer, no operation writes it.
-/
import proofs.«160967_j77111842832477_2_alg».proof.Proof.RefRun
import proofs.«160967_j77111842832477_2_alg».proof.Proof.RefDefs
import proofs.«160967_j77111842832477_2_alg».proof.Proof.LibIndexed4

noncomputable section

namespace Cert.ReferenceIdeal.RefEval

open Cert.ReferenceIdeal Cert.ReferenceIdeal.Gen Cert.ReferenceIdeal.RunP Cert.ReferenceIdeal.RefValue Cert.Windows
open Idealize.ShloMosaic Idealize.ShloMosaic.TcCoe Idealize.SL.Sem Idealize.ShloMosaic.StableHlo

variable {F : FTy → Type} [FloatOps F]

set_option maxRecDepth 32768 in
set_option maxHeartbeats 248000000 in
/-- On every device, for any float values, from any memory with zero counters: every weakly fair execution of @main
    terminates with the result buffer at `refOut` of the padded target, the target and the moving array, and the two
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v435)
        = refOut (pad S8x3x522x778 ![0, 0, 5, 5] ![0, 0, 5, 5] ![0, 0, 0, 0] (m ((c.tc : Thread nD τ).loc main_arg1)) (sitofp .f32 (constantI S_ 32 0#32)) pads_S8x3x512x768_S8x3x522x778_000_000_550_550 h_S_)
            (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v435).trans (by after_results_simp4; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefEval

end
-- ==== Proof.RefValue.lean ====
/-
  The reference's result read at an element.

  `refS_apply`: a window of the padded target at a displacement, at an element, is the padded entry displaced from it —
  the slice's four starts (0, 0, a, b with a, b ≤ 10) leave the window inside the padded array, so its clamp changes
  nothing. `refOut_apply`: so the result at an element is the stencil's cell there, in the reference's spelling
  (a running sum of arrays read at an index is the running sum of the entries).
-/
import proofs.«160967_j77111842832477_2_alg».proof.Proof.RefDefs
import proofs.«160967_j77111842832477_2_alg».proof.Proof.LibPlaneCasts
import Idealize.ShloMosaic.Lib.DynamicIndex

noncomputable section

namespace Cert.ReferenceIdeal.RefValue

open Cert.ReferenceIdeal Cert.ReferenceIdeal.Gen Cert.Windows Cert.Lib.PlaneCasts
open Idealize.ShloMosaic Idealize.ShloMosaic.TcCoe Idealize.SL.Sem Idealize.ShloMosaic.ValueIdx

/-- A displacement of at most 10 rows and columns keeps the [8, 3, 512, 768] window inside the padded array. -/
theorem slices_ok (o : Off) : S8x3x522x778.Slices ![0, 0, o.a, o.b] S8x3x512x768 :=
  ⟨rfl, fun x => by
    have ha := o.ha; have hb := o.hb
    match x with
    | ⟨0, _⟩ => show 0 + 8 ≤ 8; omega
    | ⟨1, _⟩ => show 0 + 3 ≤ 3; omega
    | ⟨2, _⟩ => show o.a + 512 ≤ 522; omega
    | ⟨3, _⟩ => show o.b + 768 ≤ 778; omega⟩

/-- The reference's window at displacement `o`, at element `i`, is the padded array's entry `o.a` rows down and `o.b`
    columns right of `i` (the starts are inside the array, so the slice's clamp changes nothing). -/
theorem refS_apply (tp : FVec Ideal S8x3x522x778 .f32) (o : Off) (i : S8x3x512x768.Idx) :
    refS tp o i = tp (shift i o) := by
  have ha := o.ha
  have hb := o.hb
  unfold refS
  rw [Host.dynamicSlice_eq_extractStridedSlice S8x3x512x768 tp _ ![0, 0, o.a, o.b] _ (slices_ok o) (fun a => by
    match a with
    | ⟨0, _⟩ => exact toInt_ofNat_of_lt (k := 0) (by omega)
    | ⟨1, _⟩ => exact toInt_ofNat_of_lt (k := 0) (by omega)
    | ⟨2, _⟩ => exact toInt_ofNat_of_lt (k := o.a) (by omega)
    | ⟨3, _⟩ => exact toInt_ofNat_of_lt (k := o.b) (by omega))]
  refine extractStridedSlice_apply (t := S8x3x512x768) ![0, 0, o.a, o.b] tp (slices_ok o) i (shift i o) (fun a => ?_)
  match a with
  | ⟨0, _⟩ => show (i 0).val = 0 + (i 0).val; omega
  | ⟨1, _⟩ => show (i 1).val = 0 + (i 1).val; omega
  | ⟨2, _⟩ => show (i 2).val + o.a = o.a + (i 2).val; omega
  | ⟨3, _⟩ => show (i 3).val + o.b = o.b + (i 3).val; omega

/-- The reference's result at an element is the stencil's cell (the reference's spelling) of the 36 displaced entries of
    the padded array and the target and moving entries there. -/
theorem refOut_apply (tp : FVec Ideal S8x3x522x778 .f32) (tg mi : FVec Ideal S8x3x512x768 .f32) (i : S8x3x512x768.Idx) :
    refOut tp tg mi i = resultR tp tg mi i := by
  simp only [refOut, Idealize.ShloMosaic.Host.divf]
  rw [foldl_addf_apply, foldl_addf_apply]
  show cellR (fun o => refS tp o i) (tg i) (mi i) = cellR (fun o => tp (shift i o)) (tg i) (mi i)
  simp only [refS_apply]

end Cert.ReferenceIdeal.RefValue

end
-- ==== Proof.lean ====
/-
  The certificate of a 36-displacement weighted stencil kernel against its array-level reference.

  Both programs compute, for every element of an [8, 3, 512, 768] array, from the 36 entries T of the zero-padded target
  displaced by (a, b) ∈ {10, 8, …, 0}² from the element, the target entry t and the moving entry mi there,

      (Σ |T − mi| · exp(−|T − t|·½)) / (Σ exp(−|T − t|·½)),

  both sums taken in the same order from zero. The kernel does it plane by plane on a grid of 8 × 3 points, each plane in
  eight strips of 64 rows; the reference on whole arrays. At the ideal values the two results are one array: the only
  difference in the arithmetic is the kernel's `0 − x` for the reference's `−x`, equal on every extended real, so the
  precondition (finite inputs) is never used.

  The kernel's side: Strip (one trip's stored value), Block (one plane), KernelArray (the array, and the run). The
  reference's side: RefDefs (its result as two running sums), RefRun and RefEval (its run), RefValue (its result at an element). Cell holds the mathematics of one
  element and the equality of the two spellings. The three frames are the programs' runs with the results forgotten;
  the idealization rewrote no operation, so its conjunct is `True`.
-/
import proofs.«160967_j77111842832477_2_alg».proof.Defs
import proofs.«160967_j77111842832477_2_alg».proof.Proof.Gen.Kernel
import proofs.«160967_j77111842832477_2_alg».proof.Proof.Gen.Kernel.Frame
import proofs.«160967_j77111842832477_2_alg».proof.Proof.Gen.KernelIdeal
import proofs.«160967_j77111842832477_2_alg».proof.Proof.Gen.KernelIdeal.Frame
import proofs.«160967_j77111842832477_2_alg».proof.Proof.Gen.KernelIdeal.Value
import proofs.«160967_j77111842832477_2_alg».proof.Proof.Gen.ReferenceIdeal
import proofs.«160967_j77111842832477_2_alg».proof.Proof.Gen.Pre_finite_inputs
import proofs.«160967_j77111842832477_2_alg».proof.Proof.KernelArray
import proofs.«160967_j77111842832477_2_alg».proof.Proof.RefEval
import proofs.«160967_j77111842832477_2_alg».proof.Proof.RefValue
import Idealize.ShloMosaic.Adequacy
import Idealize.ShloMosaic.Init

noncomputable section

namespace Cert.Proof

open Idealize.ShloMosaic Idealize.ShloMosaic.TcCoe Idealize.SL.Sem Cert.Windows

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.RefEval.run (F := Ideal) m ρ)

/-- From memories agreeing on the two arguments both programs end with the result array at one function of them: the
    kernel at `resultK` of the padded target, the target and the moving array (its run, read), the reference at
    `resultR` of the same three arrays (its run's term is `refOut`, read element by element), and the two spellings are
    one array. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.RefEval.run (F := Ideal) m' ρ')
  rw [(hagree c).1, (hagree c).2]
  funext i
  rw [Cert.ReferenceIdeal.RefValue.refOut_apply]
  exact (congrFun (resultK_eq_resultR _ _ _) i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
